-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_arg5 : FVec F S4096x4096 .f32) (main_arg6 : FVec F S1x4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S1x4096 .f32) (main_arg4 : FVec F S1x4096 .f32) (main_arg5 : FVec F S4096x4096 .f32) (main_arg6 : FVec F S1x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S1x4096 : Shape := ⟨2, ![1, 4096]⟩
abbrev S512x1024 : Shape := ⟨2, ![512, 1024]⟩
abbrev S_ : Shape := ⟨0, ![]⟩
abbrev S1024x512 : Shape := ⟨2, ![1024, 512]⟩
abbrev S1x512 : Shape := ⟨2, ![1, 512]⟩
abbrev S512x512 : Shape := ⟨2, ![512, 512]⟩

abbrev nBuf : Space → Nat
  | .hbm => 25
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S1x4096, .f32⟩
  | .hbm, ⟨7, _⟩ => ⟨S4096x4096, .bf16⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .i1⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  bcast_S_S1x4096 : S_.BroadcastsInDim S1x4096 (![] : Fin 0 → Fin S1x4096.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x4096.size a
  hwx1_3 : ∀ i : grid1.Coords, EltTy.bits .f32 = 32 ∨ (Rect.block (s := S8192x4096) S512x512.size (cc1_transform_3 i) (hinb1_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S1x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .i1⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1x4096 : S_.BroadcastsInDim S1x4096 (![] : Fin 0 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.AtWords.Sample.lean ====
/- REGION 0 of @main: the weight-sampling call (pipeline 0), at the buffer contents `V` the TensorCore holds when the
   region is entered.  Its kernel reads three whole 512x1024 blocks (the mean, the pre-softplus deviation and the noise),
   computes pointwise, and stores one whole 512x1024 bf16 block; every input block is fetched and the output block
   written back at each of the 8 x 4 grid points.  This module gives, generically in the float instance `F`:
   each window's block at a point (`iblk0`), the output buffer after the body as a function of the three input
   blocks (`out0_3`), the body's triple (`sound_kernel0`), the pipeline's proof data (`dat0`) and its body
   obligation (`body_obligation0`). -/
import proofs.«101401_j57595511439819_1_alg».proof.Proof.Gen.Kernel.Launch
import proofs.«101401_j57595511439819_1_alg».proof.Proof.Gen.Kernel.Skeleton
import proofs.«101401_j57595511439819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 x 1024 entries: the elaborator's structural look recurses once per coordinate
set_option maxRecDepth 16384

noncomputable section

namespace Cert.Kernel.Sample

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mean's staging buffer (window 0) holds the mean's block at every point, whichever of its two buffers is
    current: for ANY proof data whose array is `V`'s and whose body leaves the block in place, the window being
    fetched whole at each point and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the deviation parameter's staging buffer (window 1). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the noise's staging buffer (window 2). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole 512 x 1024 block -/

abbrev r0_0 : Rect S512x1024 := Rect.unit (s := S512x1024) ![0, 0] S512x1024.size inb_S512x1024_S512x1024_0_0

/-! ## What the body leaves in the output window's buffer -/

/-- The output staging buffer (window 3) after the body, from the three input blocks: its single store, of the
    pointwise payload `mean + softplus(deviation parameter) * noise` rounded to bf16, over the whole block. -/
def out0_3 (x0 x1 x2 : Vec F S512x1024 .f32) : Vec F S512x1024 .bf16 :=
  View.canon [⟨r0_0, k0_pay1 (View.ld x0 r0_0) (View.ld x1 r0_0) (View.ld x2 r0_0)⟩]

/-- The single store's rectangle is the whole buffer, so it covers every entry. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs — the three inputs' at contents `x0 x1 x2`, the output's at anything —
    runs to the continuation holding the inputs' as they were and the output's at `out0_3 x0 x1 x2`: three loads,
    one load of the output buffer whose value is not used, one store of the payload over the whole block. -/
theorem sound_kernel0 (c : Dev nD) (E : Set ℕ) (i : grid0.Coords)
    (arg0 : Memref sig .tc .vmem S512x1024 .f32) (harg0 : arg0.IsWhole) (arg1 : Memref sig .tc .vmem S512x1024 .f32) (harg1 : arg1.IsWhole)
    (arg2 : Memref sig .tc .vmem S512x1024 .f32) (harg2 : arg2.IsWhole) (arg3 : Memref sig .tc .vmem S512x1024 .bf16) (harg3 : arg3.IsWhole)
    (x0 x1 x2 : Vec F S512x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__weight_sample_kernel i arg0 harg0 arg1 harg1 arg2 harg2 arg3 harg3) K := by
  simp only [cc0__weight_sample_kernel_eq_skeleton]; unfold cc0__weight_sample_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer still at its block and the output's at `out0_3` of the three input blocks; the invariant
    is the one of a body that touches nothing but its windows (the scoped rest and the generator register,
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four current staging
    buffers, each whole at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Sample

end
-- ==== Proof.AtWords.MatmulCases.lean ====
/-
  The blocked matrix product with a carried accumulator (the second kernel region), part one: what its
  control cases are stated over.

  The region walks a grid of 16 x 8 x 4 points (row block i, column block j, contraction block k; k
  fastest). At a point it holds a 512 x 1024 block of the input rows, a 1024 x 512 block of the weight, a
  1 x 512 piece of the bias row and a 512 x 512 output block, and beside them ONE 512 x 512 accumulator that
  is not staged by the pipeline and survives from point to point. The body branches twice on k alone:
  at k = 0 it first clears the accumulator; at every k it adds the block product into it; at k = 3 it
  writes accumulator plus bias row into the output block. So a point is in one of three cases — k = 0,
  k = 1 or 2, k = 3 — and the output window is left untouched (and is not written back) except at k = 3.

  Here: a window's block at a point as a function of the region-entry contents `V`; the two branch
  conditions in closed form over the linear point number (k is the point number modulo 4); where the output
  window is idle; the staging memrefs at a point and the accumulator's memref; and the region's resting
  invariant split into the other region's staging buffers, the accumulator, and the generator register.
-/
import proofs.«101401_j57595511439819_1_alg».proof.Proof.Gen.Kernel.Launch
import proofs.«101401_j57595511439819_1_alg».proof.Proof.Gen.Kernel.Skeleton
import proofs.«101401_j57595511439819_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`: the part of its array, as the region finds it, that the index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input rows' staging buffer holds the rows' block at every point, for any proof data over the entry
    contents whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row's piece: it is fetched only when k = 0, and between fetches its index (which
    reads j alone) does not move, so the buffer still holds the point's piece. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "k = 0", as the body computes it from the third grid coordinate. -/
abbrev isFirst (i : grid1.Coords) : Prop := (Scalar.cmpi .ne (Scalar.extui (Scalar.cmpi .eq (BitVec.ofNat 32 (i 2).val) 0#32)) 0#32) = 1#1
/-- It holds exactly at the points whose number is 0 modulo 4. -/
theorem isFirst_iff : ∀ t : Fin cfg1.N, isFirst (grid1.coords t) ↔ t.val % 4 = 0 :=
  (by decide +kernel : ∀ t : Fin grid1.N, isFirst (grid1.coords t) ↔ t.val % 4 = 0)

/-- "k = 3", the last contraction block, as the body computes it. -/
abbrev isLast (i : grid1.Coords) : Prop := k1_cond2 i = 1#1
/-- It holds exactly at the points whose number is 3 modulo 4. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_rows : ∀ t : Fin cfg1.N, cfg1.idle 0 (grid1.coords t) = false := by decide +kernel
theorem live_weight : ∀ t : Fin cfg1.N, cfg1.idle 1 (grid1.coords t) = false := by decide +kernel
theorem live_bias : ∀ t : Fin cfg1.N, cfg1.idle 2 (grid1.coords t) = false := by decide +kernel
/-- Before the last contraction block the output window is idle and is not written back. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
/-- At the last contraction block it is live. -/
theorem live_out : ∀ t : Fin cfg1.N, isLast (grid1.coords t) → cfg1.idle 3 (grid1.coords t) = false := by decide +kernel

/-! ## The memrefs the body is called with -/

/-- One staging buffer of the output window, through which the window's contents are stated (which of the two
    does not matter once the stores cover the block). -/
abbrev outView : View sig .tc .vmem S512x512 .f32 := (Memref.whole cc1_stg3_0 : Memref sig .tc .vmem S512x512 .f32).view
abbrev mRows (t : Fin cfg1.N) : Memref sig .tc .vmem S512x1024 .f32 := win1_0.stage (cfg1.slots t 0)
abbrev hRows (t : Fin cfg1.N) : (mRows t).IsWhole := hstage1_0 ((cfg1.slots t 0).cast nbuf1_0)
abbrev mWeight (t : Fin cfg1.N) : Memref sig .tc .vmem S1024x512 .bf16 := win1_1.stage (cfg1.slots t 1)
abbrev hWeight (t : Fin cfg1.N) : (mWeight t).IsWhole := hstage1_1 ((cfg1.slots t 1).cast nbuf1_1)
abbrev mBias (t : Fin cfg1.N) : Memref sig .tc .vmem S1x512 .f32 := win1_2.stage (cfg1.slots t 2)
abbrev hBias (t : Fin cfg1.N) : (mBias t).IsWhole := hstage1_2 ((cfg1.slots t 2).cast nbuf1_2)
abbrev mOut (t : Fin cfg1.N) : Memref sig .tc .vmem S512x512 .f32 := win1_3.stage (cfg1.slots t 3)
abbrev hOut (t : Fin cfg1.N) : (mOut t).IsWhole := hstage1_3 ((cfg1.slots t 3).cast nbuf1_3)
/-- The accumulator: a whole scoped buffer of the kernel's own, passed beside the windows. -/
abbrev mAcc : Memref sig .tc .vmem S512x512 .f32 := Memref.whole cc1_scratch0
abbrev accView : View sig .tc .vmem S512x512 .f32 := mAcc.view

/-! ## The resting invariant, split -/

/-- The first region's eight staging buffers, each whole at some contents, beside a resource `S` standing where
    the accumulator's buffer stands in the list of this region's scoped buffers that are no staging buffer of its own. -/
def beside (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What stands in the accumulator's place may be exchanged. -/
theorem beside_mono (c : Dev nD) {S S' : sProp 𝕄} (h : S ⊢ S') : beside (F := F) c S ⊢ beside c S' := by
  unfold beside
  iintro ⟨H1, H2, H3, H4, H5, H6, H7, H8, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply h; iexact HS

/-- The region's resting invariant (its scoped buffers that are no staging buffer of its own, each at some contents,
    and the generator register at some state) with the accumulator named as a memref. -/
theorem resting_eq (c : Dev nD) :
    (Pipeline.ΦA spec1 c : sProp 𝕄) = iprop(beside c iprop(∃ d, owns (c : Thread nD τ) mAcc fullShare d) ∗ (∃ r, prngReg c r)) := by
  unfold Pipeline.ΦA beside; rw [scopedRest1_eq]; simp only [mAcc, owns_whole]; try rfl

end Cert.Kernel.Matmul

end
-- ==== Proof.AtWords.MatmulRunFirst.lean ====
/-
  The blocked matrix product with a carried accumulator, case k = 0: the body's run at a point where it first clears the accumulator and then adds the block
  product into it, the output block untouched. The accumulator arrives at any contents; what the two stores leave in it
  (last store first) is found by running the body symbolically.
-/
import proofs.«101401_j57595511439819_1_alg».proof.Proof.AtWords.MatmulCases

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the three inputs at contents `x0 x1 x2`, the output buffer at contents `y` handed back untouched,
    the accumulator at anything — the body at a point with k = 0 runs to its end with the inputs as they were and the
    accumulator holding the pieces `LA` written over what it held. -/
noncomputable def runFirst (c : Dev nD) (i : grid1.Coords) (aR : Memref sig .tc .vmem S512x1024 .f32) (hR : aR.IsWhole) (aW : Memref sig .tc .vmem S1024x512 .bf16) (hW : aW.IsWhole) (aB : Memref sig .tc .vmem S1x512 .f32) (hB : aB.IsWhole) (aO : Memref sig .tc .vmem S512x512 .f32) (hO : aO.IsWhole) (aA : Memref sig .tc .vmem S512x512 .f32) (hA : aA.IsWhole) (h0 : isFirst i) (h3 : ¬isLast i)
    (x0 : Vec F S512x1024 .f32) (x1 : Vec F S1024x512 .bf16) (x2 : Vec F S1x512 .f32) :
    Σ' (LO : List (View.Piece (Elt F) S512x512 .f32)), { LA : List (View.Piece (Elt F) S512x512 .f32) //
      ∀ (y : Vec F S512x512 .f32) (E : Set ℕ) (K : PUnit → sProp 𝕄),
        iprop(owns (c : Thread nD τ) aR fullShare x0 ∗ owns (c : Thread nD τ) aW fullShare x1 ∗ owns (c : Thread nD τ) aB fullShare x2 ∗ owns (c : Thread nD τ) aO fullShare y ∗ (∃ d, owns (c : Thread nD τ) aA fullShare d)
            ∗ (iprop(owns (c : Thread nD τ) aR fullShare x0 ∗ owns (c : Thread nD τ) aW fullShare x1 ∗ owns (c : Thread nD τ) aB fullShare x2 ∗ owns (c : Thread nD τ) aO fullShare y ∗ (∃ f, aA.view.loc (c : Thread nD τ) ↦[aA.view.set]{fullShare} aA.view.writes (Elt F) f LA)) -∗ K ⟨⟩))
          ⊢ wp frame (wpE (defs₀ (F := F)) Variants.none c none) E (cc1__matmul_kernel i aR hR aW hW aB hB aO hO aA hA) K } := by
  refine ⟨[], ?_, fun y E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := hR.eq_unread hf0; obtain rfl := hW.eq_unread hf1; obtain rfl := hB.eq_unread hf2; obtain rfl := hO.eq_unread hf3
    sl_exec (disch := first | exact h0 | exact h3)
    sl_step
    iapply Hk
    isplitl [H0]
    · iexists _; isplitr; · ipureintro; exact hR.read_unread _
      iexact H0
    isplitl [H1]
    · iexists _; isplitr; · ipureintro; exact hW.read_unread _
      iexact H1
    isplitl [H2]
    · iexists _; isplitr; · ipureintro; exact hB.read_unread _
      iexact H2
    isplitl [H3]
    · iexists _; isplitr; · ipureintro; exact hO.read_unread _
      iexact H3
    iexists _; iexact HA

end Cert.Kernel.Matmul

end
-- ==== Proof.AtWords.MatmulRunMiddle.lean ====
/-
  The blocked matrix product with a carried accumulator, case k = 1 or 2: the body's run at a point where it only adds the block product into the accumulator,
  which arrives holding what the point before left; the output block is untouched.
-/
import proofs.«101401_j57595511439819_1_alg».proof.Proof.AtWords.MatmulCases

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the inputs at `x0 x1 x2`, the output buffer at `y` handed back untouched, the accumulator at
    `a` — the body at a point with 0 < k < 3 runs to its end with the inputs as they were and the accumulator holding the
    pieces `LA` written over `a`. -/
noncomputable def runMiddle (c : Dev nD) (i : grid1.Coords) (aR : Memref sig .tc .vmem S512x1024 .f32) (hR : aR.IsWhole) (aW : Memref sig .tc .vmem S1024x512 .bf16) (hW : aW.IsWhole) (aB : Memref sig .tc .vmem S1x512 .f32) (hB : aB.IsWhole) (aO : Memref sig .tc .vmem S512x512 .f32) (hO : aO.IsWhole) (aA : Memref sig .tc .vmem S512x512 .f32) (hA : aA.IsWhole) (h0 : ¬isFirst i) (h3 : ¬isLast i)
    (x0 : Vec F S512x1024 .f32) (x1 : Vec F S1024x512 .bf16) (x2 : Vec F S1x512 .f32) (a : Vec F S512x512 .f32) :
    Σ' (LO : List (View.Piece (Elt F) S512x512 .f32)), { LA : List (View.Piece (Elt F) S512x512 .f32) //
      ∀ (y : Vec F S512x512 .f32) (E : Set ℕ) (K : PUnit → sProp 𝕄),
        iprop(owns (c : Thread nD τ) aR fullShare x0 ∗ owns (c : Thread nD τ) aW fullShare x1 ∗ owns (c : Thread nD τ) aB fullShare x2 ∗ owns (c : Thread nD τ) aO fullShare y ∗ owns (c : Thread nD τ) aA fullShare a
            ∗ (iprop(owns (c : Thread nD τ) aR fullShare x0 ∗ owns (c : Thread nD τ) aW fullShare x1 ∗ owns (c : Thread nD τ) aB fullShare x2 ∗ owns (c : Thread nD τ) aO fullShare y ∗ (∃ f, aA.view.loc (c : Thread nD τ) ↦[aA.view.set]{fullShare} aA.view.writes (Elt F) f LA)) -∗ K ⟨⟩))
          ⊢ wp frame (wpE (defs₀ (F := F)) Variants.none c none) E (cc1__matmul_kernel i aR hR aW hW aB hB aO hO aA hA) K } := by
  refine ⟨[], ?_, fun y E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := hR.eq_unread hf0; obtain rfl := hW.eq_unread hf1; obtain rfl := hB.eq_unread hf2; obtain rfl := hO.eq_unread hf3; obtain rfl := hA.eq_unread hfa
    sl_exec (disch := first | exact h0 | exact h3)
    sl_step
    iapply Hk
    isplitl [H0]
    · iexists _; isplitr; · ipureintro; exact hR.read_unread _
      iexact H0
    isplitl [H1]
    · iexists _; isplitr; · ipureintro; exact hW.read_unread _
      iexact H1
    isplitl [H2]
    · iexists _; isplitr; · ipureintro; exact hB.read_unread _
      iexact H2
    isplitl [H3]
    · iexists _; isplitr; · ipureintro; exact hO.read_unread _
      iexact H3
    iexists _; iexact HA

end Cert.Kernel.Matmul

end
-- ==== Proof.AtWords.MatmulRunLast.lean ====
/-
  The blocked matrix product with a carried accumulator, case k = 3: the body's run at a point where it adds the last block product into the accumulator and then
  stores accumulator plus bias row into the output block, whose buffer arrives at anything.
-/
import proofs.«101401_j57595511439819_1_alg».proof.Proof.AtWords.MatmulCases

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the inputs at `x0 x1 x2`, the output buffer at anything, the accumulator at `a` — the body at a
    point with k = 3 runs to its end with the inputs as they were, the accumulator holding the pieces `LA` written over
    `a` and the output buffer holding the pieces `LO` written over what it held. -/
noncomputable def runLast (c : Dev nD) (i : grid1.Coords) (aR : Memref sig .tc .vmem S512x1024 .f32) (hR : aR.IsWhole) (aW : Memref sig .tc .vmem S1024x512 .bf16) (hW : aW.IsWhole) (aB : Memref sig .tc .vmem S1x512 .f32) (hB : aB.IsWhole) (aO : Memref sig .tc .vmem S512x512 .f32) (hO : aO.IsWhole) (aA : Memref sig .tc .vmem S512x512 .f32) (hA : aA.IsWhole) (h0 : ¬isFirst i) (h3 : isLast i)
    (x0 : Vec F S512x1024 .f32) (x1 : Vec F S1024x512 .bf16) (x2 : Vec F S1x512 .f32) (a : Vec F S512x512 .f32) :
    Σ' (LO : List (View.Piece (Elt F) S512x512 .f32)), { LA : List (View.Piece (Elt F) S512x512 .f32) //
      ∀ (E : Set ℕ) (K : PUnit → sProp 𝕄),
        iprop(owns (c : Thread nD τ) aR fullShare x0 ∗ owns (c : Thread nD τ) aW fullShare x1 ∗ owns (c : Thread nD τ) aB fullShare x2 ∗ (∃ d, owns (c : Thread nD τ) aO fullShare d) ∗ owns (c : Thread nD τ) aA fullShare a
            ∗ (iprop(owns (c : Thread nD τ) aR fullShare x0 ∗ owns (c : Thread nD τ) aW fullShare x1 ∗ owns (c : Thread nD τ) aB fullShare x2 ∗ (∃ f, aO.view.loc (c : Thread nD τ) ↦[aO.view.set]{fullShare} aO.view.writes (Elt F) f LO) ∗ (∃ f, aA.view.loc (c : Thread nD τ) ↦[aA.view.set]{fullShare} aA.view.writes (Elt F) f LA)) -∗ K ⟨⟩))
          ⊢ wp frame (wpE (defs₀ (F := F)) Variants.none c none) E (cc1__matmul_kernel i aR hR aW hW aB hB aO hO aA hA) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := hR.eq_unread hf0; obtain rfl := hW.eq_unread hf1; obtain rfl := hB.eq_unread hf2; obtain rfl := hA.eq_unread hfa
    sl_exec (disch := first | exact h0 | exact h3)
    sl_step
    iapply Hk
    isplitl [H0]
    · iexists _; isplitr; · ipureintro; exact hR.read_unread _
      iexact H0
    isplitl [H1]
    · iexists _; isplitr; · ipureintro; exact hW.read_unread _
      iexact H1
    isplitl [H2]
    · iexists _; isplitr; · ipureintro; exact hB.read_unread _
      iexact H2
    isplitl [H3]; · iexists _; iexact H3
    iexists _; iexact HA

end Cert.Kernel.Matmul

end
-- ==== Proof.AtWords.Matmul.lean ====
/-
  The blocked matrix product with a carried accumulator, part two: the region's proof data and its body
  obligation, at the region-entry contents `V`.

  What the accumulator and the output block's buffer hold after the body at the n-th point is defined by
  recursion on n, following the three cases: at k = 0 the accumulator is what that case's stores leave, from
  the point's blocks alone; at k = 1, 2 what the case's store leaves over the accumulator of the point
  before; at k = 3 likewise, and the output buffer is what the final store leaves. (At k < 3 the output
  window is idle: its entry in the pair is a placeholder nothing consults.) The region's invariant before
  point n > 0 holds the accumulator at the contents the point before left — that is how the sum travels
  from one contraction block to the next.
-/
import proofs.«101401_j57595511439819_1_alg».proof.Proof.AtWords.MatmulRunFirst
import proofs.«101401_j57595511439819_1_alg».proof.Proof.AtWords.MatmulRunMiddle
import proofs.«101401_j57595511439819_1_alg».proof.Proof.AtWords.MatmulRunLast

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Taking the accumulator out of the resting invariant and putting it back -/

theorem beside_out (c : Dev nD) (S : sProp 𝕄) : beside (F := F) c S ⊢ iprop(beside c iprop(emp) ∗ S) := by
  unfold beside
  iintro ⟨H1, H2, H3, H4, H5, H6, H7, H8, HS⟩
  isplitr [HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  iexact HS

theorem beside_in (c : Dev nD) (S : sProp 𝕄) : iprop(beside (F := F) c iprop(emp) ∗ S) ⊢ beside c S := by
  unfold beside
  iintro ⟨⟨H1, H2, H3, H4, H5, H6, H7, H8, -⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

section
variable (V : (c : Dev nD) → (b : Ref sig .tc) → Buf (Elt F) ((c : Thread nD τ).loc b))

/-! ## What each case leaves, at a point -/

/-- The output buffer's entry at a point where the window is idle: nothing reads it. -/
def idleOut : Vec F S512x512 .f32 := outView.read (Elt F) outView.junk

/-- The accumulator after a point with k = 0: that case's two stores read back. -/
def accAfterFirst (c : Dev nD) (t : Fin cfg1.N) (h0 : t.val % 4 = 0) (h3 : ¬t.val % 4 = 3) : Vec F S512x512 .f32 :=
  accView.read (Elt F) (accView.writes (Elt F) accView.junk (runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.1)

theorem accFirst_cover (c : Dev nD) (t : Fin cfg1.N) (h0 : t.val % 4 = 0) (h3 : ¬t.val % 4 = 3) (y : S512x512.Idx) :
    ∃ pc ∈ (runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.1, y ∈ pc.1.set :=
  View.cover_of_tiledL _ S512x512.size (by sl_kernel_rfl) y

/-- The accumulator after a point with k = 1 or 2, over the contents `a` the point before left. -/
def accAfterMiddle (c : Dev nD) (t : Fin cfg1.N) (h0 : ¬t.val % 4 = 0) (h3 : ¬t.val % 4 = 3) (a : Vec F S512x512 .f32) : Vec F S512x512 .f32 :=
  accView.read (Elt F) (accView.writes (Elt F) accView.junk (runMiddle c (grid1.coords t) (mRows t) (hRows t) (mWeight t) (hWeight t) (mBias t) (hBias t) (mOut t) (hOut t) mAcc (Memref.isWhole_whole _) (fun h => h0 ((isFirst_iff t).mp h)) (fun h => h3 ((isLast_iff t).mp h)) (iblk1 V c 0 t) (iblk1 V c 1 t) (iblk1 V c 2 t) a).2.1)

theorem accMiddle_cover (c : Dev nD) (t : Fin cfg1.N) (h0 : ¬t.val % 4 = 0) (h3 : ¬t.val % 4 = 3) (a : Vec F S512x512 .f32) (y : S512x512.Idx) :
    ∃ pc ∈ (runMiddle c (grid1.coords t) (mRows t) (hRows t) (mWeight t) (hWeight t) (mBias t) (hBias t) (mOut t) (hOut t) mAcc (Memref.isWhole_whole _) (fun h => h0 ((isFirst_iff t).mp h)) (fun h => h3 ((isLast_iff t).mp h)) (iblk1 V c 0 t) (iblk1 V c 1 t) (iblk1 V c 2 t) a).2.1, y ∈ pc.1.set :=
  View.cover_of_tiledL _ S512x512.size (by sl_kernel_rfl) y

/-- The accumulator after a point with k = 3, over `a`. -/
def accAfterLast (c : Dev nD) (t : Fin cfg1.N) (h0 : ¬t.val % 4 = 0) (h3 : t.val % 4 = 3) (a : Vec F S512x512 .f32) : Vec F S512x512 .f32 :=
  accView.read (Elt F) (accView.writes (Elt F) accView.junk (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).2.1)

theorem accLast_cover (c : Dev nD) (t : Fin cfg1.N) (h0 : ¬t.val % 4 = 0) (h3 : t.val % 4 = 3) (a : Vec F S512x512 .f32) (y : S512x512.Idx) :
    ∃ pc ∈ (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).2.1, y ∈ pc.1.set :=
  View.cover_of_tiledL _ S512x512.size (by sl_kernel_rfl) y

/-- The output block's buffer after a point with k = 3, over the accumulator `a` the point before left. -/
def outAfterLast (c : Dev nD) (t : Fin cfg1.N) (h0 : ¬t.val % 4 = 0) (h3 : t.val % 4 = 3) (a : Vec F S512x512 .f32) : Vec F S512x512 .f32 :=
  outView.read (Elt F) (outView.writes (Elt F) outView.junk (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).1)

theorem outLast_cover (c : Dev nD) (t : Fin cfg1.N) (h0 : ¬t.val % 4 = 0) (h3 : t.val % 4 = 3) (a : Vec F S512x512 .f32) (y : S512x512.Idx) :
    ∃ pc ∈ (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).1, y ∈ pc.1.set :=
  View.cover_of_tiledL _ S512x512.size (by sl_kernel_rfl) y

/-! ## Point by point -/

/-- The pair (output block's buffer, accumulator) after the body at position `n`. -/
def heldAfter (c : Dev nD) : (n : ℕ) → n < cfg1.N → Vec F S512x512 .f32 × Vec F S512x512 .f32
  | 0, hn => (idleOut, accAfterFirst V c ⟨0, hn⟩ (Nat.zero_mod 4) (fun h => absurd (show (0 : ℕ) % 4 = 3 from h) (by decide)))
  | n + 1, hn =>
    if h0 : (n + 1) % 4 = 0 then
      (idleOut, accAfterFirst V c ⟨n + 1, hn⟩ h0 (fun h => by have h' : (n + 1) % 4 = 3 := h; omega))
    else
      if h3 : (n + 1) % 4 = 3 then
        (outAfterLast V c ⟨n + 1, hn⟩ h0 h3 (heldAfter c n (Nat.lt_of_succ_lt hn)).2, accAfterLast V c ⟨n + 1, hn⟩ h0 h3 (heldAfter c n (Nat.lt_of_succ_lt hn)).2)
      else
        (idleOut, accAfterMiddle V c ⟨n + 1, hn⟩ h0 h3 (heldAfter c n (Nat.lt_of_succ_lt hn)).2)

theorem heldAfter_first (c : Dev nD) (t : Fin cfg1.N) (h0 : t.val % 4 = 0) (h3 : ¬t.val % 4 = 3) :
    heldAfter V c t.val t.isLt = (idleOut, accAfterFirst V c t h0 h3) := by
  obtain ⟨n, hn⟩ := t
  cases n with
  | zero => rfl
  | succ n => exact (dif_pos h0).trans rfl

theorem heldAfter_middle (c : Dev nD) (t : Fin cfg1.N) (h0 : ¬t.val % 4 = 0) (h3 : ¬t.val % 4 = 3) :
    heldAfter V c t.val t.isLt = (idleOut, accAfterMiddle V c t h0 h3 (heldAfter V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_neg h3).trans rfl)

theorem heldAfter_last (c : Dev nD) (t : Fin cfg1.N) (h0 : ¬t.val % 4 = 0) (h3 : t.val % 4 = 3) :
    heldAfter V c t.val t.isLt = (outAfterLast V c t h0 h3 (heldAfter V c (t.val - 1) (Nat.lt_of_le_of_lt (Nat.sub_le _ _) t.isLt)).2, accAfterLast V c t h0 h3 (heldAfter V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_pos h3).trans rfl)

/-! ## The invariant that carries the accumulator -/

/-- Before position `n`: at the start the region's resting invariant (the accumulator at anything); afterwards
    the same with the accumulator at what the point before left. -/
def carried (c : Dev nD) : (n : ℕ) → n ≤ cfg1.N → sProp 𝕄
  | 0, _ => Pipeline.ΦA spec1 c
  | n + 1, hn => iprop(beside c (owns (c : Thread nD τ) mAcc fullShare (heldAfter V c n hn).2) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(beside c (owns (c : Thread nD τ) mAcc fullShare (heldAfter V c n hn).2) ∗ (∃ r, prngReg c r)) := rfl

theorem carried_pos (c : Dev nD) (n : ℕ) (h : n ≤ cfg1.N) (hz : n ≠ 0) :
    carried V c n h = iprop(beside c (owns (c : Thread nD τ) mAcc fullShare (heldAfter V c (n - 1) (by omega)).2) ∗ (∃ r, prngReg c r)) := by
  cases n with
  | zero => exact absurd rfl hz
  | succ n => rfl

/-! ## The proof data -/

/-- Pipeline 1's proof data on core `c`: the arrays as the region finds them; after the body at a point each
    input's buffer still at its block and the output's at `heldAfter`'s first entry; the invariant `carried`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (heldAfter V c t.val t.isLt).1
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem carried_castSucc (c : Dev nD) (t : Fin cfg1.N) :
    (dat1 V c).Φ t.castSucc = carried V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (heldAfter V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- A live input window's buffer is handed back holding its block. -/
theorem leaves_rows (c : Dev nD) (t : Fin cfg1.N) : (dat1 V c).leavesExact 0 t = owns (c : Thread nD τ) (mRows t) fullShare (iblk1 V c 0 t) := by
  rw [show (dat1 V c).leavesExact 0 t = owns (c : Thread nD τ) (mRows t) fullShare ((dat1 V c).after 0 t) from by
    unfold Dat.leavesExact; rw [live_rows t], after1_0]
theorem leaves_weight (c : Dev nD) (t : Fin cfg1.N) : (dat1 V c).leavesExact 1 t = owns (c : Thread nD τ) (mWeight t) fullShare (iblk1 V c 1 t) := by
  rw [show (dat1 V c).leavesExact 1 t = owns (c : Thread nD τ) (mWeight t) fullShare ((dat1 V c).after 1 t) from by
    unfold Dat.leavesExact; rw [live_weight t], after1_1]
theorem leaves_bias (c : Dev nD) (t : Fin cfg1.N) : (dat1 V c).leavesExact 2 t = owns (c : Thread nD τ) (mBias t) fullShare (iblk1 V c 2 t) := by
  rw [show (dat1 V c).leavesExact 2 t = owns (c : Thread nD τ) (mBias t) fullShare ((dat1 V c).after 2 t) from by
    unfold Dat.leavesExact; rw [live_bias t], after1_2]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mRows t) fullShare ((dat1 V c).before 0 t d))
    ∗ (∃ d, owns (c : Thread nD τ) (mWeight t) fullShare ((dat1 V c).before 1 t d))
    ∗ (∃ d, owns (c : Thread nD τ) (mBias t) fullShare ((dat1 V c).before 2 t d))
    ∗ (∃ d, owns (c : Thread nD τ) (mOut t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; k decides the case; the invariant hands the body
    the accumulator (at anything at the very first point, else at what the point before left) and takes it back at
    this point's contents; the output's buffer is handed back untouched before the last contraction block and with
    the final store's contents at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = carried V c (t.val + 1) t.isLt from rfl, carried_succ]
  rw [leaves_rows, leaves_weight, leaves_bias]
  have hN : t.val < 512 := lt_of_lt_of_eq t.isLt (show cfg1.N = 512 from N_1)
  by_cases h0 : t.val % 4 = 0
  · have h3 : ¬t.val % 4 = 3 := by omega
    rw [Dat.leavesExact_idle (dat1 V c) 3 t (idle_out t (fun h => h3 ((isLast_iff t).mp h))) (noFlush_out t (fun h => h3 ((isLast_iff t).mp h)))]
    rw [heldAfter_first V c t h0 h3]
    unfold accAfterFirst; (try dsimp only)
    by_cases hz : t.val = 0
    · rw [carried_castSucc V c t, carried_zero V c _ _ hz, resting_eq]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accFirst_cover V c t h0 h3)
        iexact Hg
      isplitl [Ho]; · iexact Ho
      isplitl [H0]; · iexact H0
      isplitl [H1]; · iexact H1
      isplitl [H2]; · iexact H2
      iexists _; iexact H3
    · rw [carried_castSucc V c t, carried_pos V c _ _ hz]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accFirst_cover V c t h0 h3)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat1 V c).leavesExact 3 t = owns (c : Thread nD τ) (mOut t) fullShare ((dat1 V c).after 3 t) from by
        unfold Dat.leavesExact; rw [live_out t ((isLast_iff t).mpr h3)], after1_3]
      rw [heldAfter_last V c t h0 h3]
      unfold outAfterLast accAfterLast; (try dsimp only)
      rw [carried_castSucc V c t, carried_pos V c _ _ hz]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accLast_cover V c t h0 h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t h0 h3 _)
    · rw [Dat.leavesExact_idle (dat1 V c) 3 t (idle_out t (fun h => h3 ((isLast_iff t).mp h))) (noFlush_out t (fun h => h3 ((isLast_iff t).mp h)))]
      rw [heldAfter_middle V c t h0 h3]
      unfold accAfterMiddle; (try dsimp only)
      rw [carried_castSucc V c t, carried_pos V c _ _ hz]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runMiddle c (grid1.coords t) (mRows t) (hRows t) (mWeight t) (hWeight t) (mBias t) (hBias t) (mOut t) (hOut t) mAcc (Memref.isWhole_whole _) (fun h => h0 ((isFirst_iff t).mp h)) (fun h => h3 ((isLast_iff t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accMiddle_cover V c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem enter1 (c : Dev nD) : Pipeline.ΦA spec1 c ⊢ (dat1 V c).Φ 0 := by
  rw [show (dat1 V c).Φ 0 = carried V c 0 (Nat.zero_le _) from rfl, carried_zero V c 0 _ rfl]

/-- After the last point the invariant gives the resting invariant back: the accumulator's contents are forgotten. -/
theorem leave1 (c : Dev nD) : (dat1 V c).Φ (Fin.last cfg1.N) ⊢ Pipeline.ΦA spec1 c := by
  have hN : cfg1.N = 512 := N_1
  rw [show (dat1 V c).Φ (Fin.last cfg1.N) = carried V c (Fin.last cfg1.N).val (Nat.le_of_lt_succ (Fin.last cfg1.N).isLt) from rfl,
    carried_pos V c _ _ (by rw [Fin.val_last]; omega), resting_eq]
  exact sep_mono (beside_mono c (by iintro H; iexists _; iexact H)) .rfl

end

end Cert.Kernel.Matmul

end
-- ==== Proof.AtWords.Whole.lean ====
/-
  The whole program: @main is the weight-sampling region, two stretches of host operations computing the
  bias row, and the blocked-matrix-product region. Here the four are composed.

  The contents of the TensorCore's unscoped buffers at each boundary are a fold from the launch memory: a
  region replaces its windows' arrays by what its write-backs leave and keeps every other buffer; a host
  stretch applies its operations. Each region is entered from the fold's contents before it and left at the
  contents after it, its windows' arrays split out of the buffers at entry and put back at exit, the
  generator register lent to the region's invariant and returned. The run then says: every weakly fair
  execution of @main terminates without a fault, and in the final memory every unscoped buffer holds the
  fold's last contents — in particular each argument array its launch contents (no host operation writes
  one, and a region only reads it or bypasses it) and the result array what the second region's write-backs
  leave.
-/
import proofs.«101401_j57595511439819_1_alg».proof.Proof.AtWords.Sample
import proofs.«101401_j57595511439819_1_alg».proof.Proof.AtWords.Matmul
import proofs.«101401_j57595511439819_1_alg».proof.Proof.Gen.Kernel.Regions
import Idealize.ShloMosaic.Lib.Pipeline.RegionsLoop

set_option maxRecDepth 16384

noncomputable section

namespace Cert.Kernel.Whole

open Cert.Kernel Cert.Kernel.Gen Cert.Kernel.Sample Cert.Kernel.Matmul
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (and at the first region's entry: no host operation precedes it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the weight-sampling region: its arrays at what its write-backs leave, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem exit0_arr (c : Dev nD) (w : Fin cfg0.W) : (dat0 (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the softplus of the bias scale, -/
abbrev W2 : Dev nD → Valuation τ sig (Elt F) := fun c => StableHlo.after hostOps1 (W1 m ρ c)
/-- and after the bias row is formed (the second region's entry). -/
abbrev W3 : Dev nD → Valuation τ sig (Elt F) := fun c => StableHlo.after hostOps1_1 (W2 m ρ c)
abbrev V3 : (c : Dev nD) → (b : Ref sig .tc) → Buf (Elt F) ((c : Thread nD τ).loc b) := fun c b => W3 m ρ c b
/-- After the matrix-product region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit1_arr (c : Dev nD) (w : Fin cfg1.W) : (dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem end_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1_1 _ hostOps1_1_writes (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl
theorem end_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1_1 _ hostOps1_1_writes (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem end_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1_1 _ hostOps1_1_writes (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem end_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1_1 _ hostOps1_1_writes (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem end_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1_1 _ hostOps1_1_writes (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem end_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1_1 _ hostOps1_1_writes (by decide)
    _ = W1 m ρ c (Proc.devRef .tc main_arg5) := StableHlo.after_of_writes_sub hostOps1 _ hostOps1_writes (by decide)
    _ = W0 m ρ c (Proc.devRef .tc main_arg5) := (W1_arr m ρ c 2).trans (((dat0 (V0 m ρ) c).arrAt_in 2 rfl _).trans (A_eq0 (V0 m ρ) c 2))
    _ = m ((c : Thread nD τ).loc main_arg5) := rfl
theorem end_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1_1 _ hostOps1_1_writes (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The weight-sampling region: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from `W3`, left at `W4`. Its invariant takes the generator register and the
    scoped buffers in as the resting invariant and gives them back as such, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hleave : (pdats m ρ 1 c).Φ (Fin.last _) ⊢ (Pipeline.ΦA spec1 c : sProp 𝕄) := leave1 (V3 m ρ) c
    refine hleave.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores
    terminates, nothing faulting, and every final memory has the result array at what the second region's write-backs
    leave and each argument array at its launch contents. -/
theorem run_all : θ_run defs (onTc (τ := τ) (main (F := F))) ⟨m, fun _ => 0, ρ⟩ (fun r => ∀ c : Dev nD,
      r.2.mem ((c.tc : Thread nD τ).loc main_v4) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 3),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c),
       (h c _ (mem_uc main_arg6 (by decide))).trans (end_main_arg6 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_all m ρ)

end Cert.Kernel.Whole

end
-- ==== Proof.Sample.lean ====
/- REGION 0 of @main: the weight-sampling call (pipeline 0), at the buffer contents `V` the TensorCore holds when the
   region is entered.  Its kernel reads three whole 512x1024 blocks (the mean, the pre-softplus deviation and the noise),
   computes pointwise, and stores one whole 512x1024 bf16 block; every input block is fetched and the output block
   written back at each of the 8 x 4 grid points.  This module gives, generically in the float instance `F`:
   each window's block at a point (`iblk0`), the output buffer after the body as a function of the three input
   blocks (`out0_3`), the body's triple (`sound_kernel0`), the pipeline's proof data (`dat0`) and its body
   obligation (`body_obligation0`). -/
import proofs.«101401_j57595511439819_1_alg».proof.Proof.Gen.KernelIdeal.Launch
import proofs.«101401_j57595511439819_1_alg».proof.Proof.Gen.KernelIdeal.Skeleton
import proofs.«101401_j57595511439819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 x 1024 entries: the elaborator's structural look recurses once per coordinate
set_option maxRecDepth 16384

noncomputable section

namespace Cert.KernelIdeal.Sample

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mean's staging buffer (window 0) holds the mean's block at every point, whichever of its two buffers is
    current: for ANY proof data whose array is `V`'s and whose body leaves the block in place, the window being
    fetched whole at each point and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the deviation parameter's staging buffer (window 1). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the noise's staging buffer (window 2). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole 512 x 1024 block -/

abbrev r0_0 : Rect S512x1024 := Rect.unit (s := S512x1024) ![0, 0] S512x1024.size inb_S512x1024_S512x1024_0_0

/-! ## What the body leaves in the output window's buffer -/

/-- The output staging buffer (window 3) after the body, from the three input blocks: its single store, of the
    pointwise payload `mean + softplus(deviation parameter) * noise` rounded to bf16, over the whole block. -/
def out0_3 (x0 x1 x2 : Vec F S512x1024 .f32) : Vec F S512x1024 .bf16 :=
  View.canon [⟨r0_0, k0_pay1 (View.ld x0 r0_0) (View.ld x1 r0_0) (View.ld x2 r0_0)⟩]

/-- The single store's rectangle is the whole buffer, so it covers every entry. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs — the three inputs' at contents `x0 x1 x2`, the output's at anything —
    runs to the continuation holding the inputs' as they were and the output's at `out0_3 x0 x1 x2`: three loads,
    one load of the output buffer whose value is not used, one store of the payload over the whole block. -/
theorem sound_kernel0 (c : Dev nD) (E : Set ℕ) (i : grid0.Coords)
    (arg0 : Memref sig .tc .vmem S512x1024 .f32) (harg0 : arg0.IsWhole) (arg1 : Memref sig .tc .vmem S512x1024 .f32) (harg1 : arg1.IsWhole)
    (arg2 : Memref sig .tc .vmem S512x1024 .f32) (harg2 : arg2.IsWhole) (arg3 : Memref sig .tc .vmem S512x1024 .bf16) (harg3 : arg3.IsWhole)
    (x0 x1 x2 : Vec F S512x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__weight_sample_kernel i arg0 harg0 arg1 harg1 arg2 harg2 arg3 harg3) K := by
  simp only [cc0__weight_sample_kernel_eq_skeleton]; unfold cc0__weight_sample_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer still at its block and the output's at `out0_3` of the three input blocks; the invariant
    is the one of a body that touches nothing but its windows (the scoped rest and the generator register,
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four current staging
    buffers, each whole at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Sample

end
-- ==== Proof.MatmulCases.lean ====
/-
  The blocked matrix product with a carried accumulator (the second kernel region), part one: what its
  control cases are stated over.

  The region walks a grid of 16 x 8 x 4 points (row block i, column block j, contraction block k; k
  fastest). At a point it holds a 512 x 1024 block of the input rows, a 1024 x 512 block of the weight, a
  1 x 512 piece of the bias row and a 512 x 512 output block, and beside them ONE 512 x 512 accumulator that
  is not staged by the pipeline and survives from point to point. The body branches twice on k alone:
  at k = 0 it first clears the accumulator; at every k it adds the block product into it; at k = 3 it
  writes accumulator plus bias row into the output block. So a point is in one of three cases — k = 0,
  k = 1 or 2, k = 3 — and the output window is left untouched (and is not written back) except at k = 3.

  Here: a window's block at a point as a function of the region-entry contents `V`; the two branch
  conditions in closed form over the linear point number (k is the point number modulo 4); where the output
  window is idle; the staging memrefs at a point and the accumulator's memref; and the region's resting
  invariant split into the other region's staging buffers, the accumulator, and the generator register.
-/
import proofs.«101401_j57595511439819_1_alg».proof.Proof.Gen.KernelIdeal.Launch
import proofs.«101401_j57595511439819_1_alg».proof.Proof.Gen.KernelIdeal.Skeleton
import proofs.«101401_j57595511439819_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`: the part of its array, as the region finds it, that the index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input rows' staging buffer holds the rows' block at every point, for any proof data over the entry
    contents whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row's piece: it is fetched only when k = 0, and between fetches its index (which
    reads j alone) does not move, so the buffer still holds the point's piece. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "k = 0", as the body computes it from the third grid coordinate. -/
abbrev isFirst (i : grid1.Coords) : Prop := (Scalar.cmpi .ne (Scalar.extui (Scalar.cmpi .eq (BitVec.ofNat 32 (i 2).val) 0#32)) 0#32) = 1#1
/-- It holds exactly at the points whose number is 0 modulo 4. -/
theorem isFirst_iff : ∀ t : Fin cfg1.N, isFirst (grid1.coords t) ↔ t.val % 4 = 0 :=
  (by decide +kernel : ∀ t : Fin grid1.N, isFirst (grid1.coords t) ↔ t.val % 4 = 0)

/-- "k = 3", the last contraction block, as the body computes it. -/
abbrev isLast (i : grid1.Coords) : Prop := k1_cond2 i = 1#1
/-- It holds exactly at the points whose number is 3 modulo 4. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_rows : ∀ t : Fin cfg1.N, cfg1.idle 0 (grid1.coords t) = false := by decide +kernel
theorem live_weight : ∀ t : Fin cfg1.N, cfg1.idle 1 (grid1.coords t) = false := by decide +kernel
theorem live_bias : ∀ t : Fin cfg1.N, cfg1.idle 2 (grid1.coords t) = false := by decide +kernel
/-- Before the last contraction block the output window is idle and is not written back. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
/-- At the last contraction block it is live. -/
theorem live_out : ∀ t : Fin cfg1.N, isLast (grid1.coords t) → cfg1.idle 3 (grid1.coords t) = false := by decide +kernel

/-! ## The memrefs the body is called with -/

/-- One staging buffer of the output window, through which the window's contents are stated (which of the two
    does not matter once the stores cover the block). -/
abbrev outView : View sig .tc .vmem S512x512 .f32 := (Memref.whole cc1_stg3_0 : Memref sig .tc .vmem S512x512 .f32).view
abbrev mRows (t : Fin cfg1.N) : Memref sig .tc .vmem S512x1024 .f32 := win1_0.stage (cfg1.slots t 0)
abbrev hRows (t : Fin cfg1.N) : (mRows t).IsWhole := hstage1_0 ((cfg1.slots t 0).cast nbuf1_0)
abbrev mWeight (t : Fin cfg1.N) : Memref sig .tc .vmem S1024x512 .bf16 := win1_1.stage (cfg1.slots t 1)
abbrev hWeight (t : Fin cfg1.N) : (mWeight t).IsWhole := hstage1_1 ((cfg1.slots t 1).cast nbuf1_1)
abbrev mBias (t : Fin cfg1.N) : Memref sig .tc .vmem S1x512 .f32 := win1_2.stage (cfg1.slots t 2)
abbrev hBias (t : Fin cfg1.N) : (mBias t).IsWhole := hstage1_2 ((cfg1.slots t 2).cast nbuf1_2)
abbrev mOut (t : Fin cfg1.N) : Memref sig .tc .vmem S512x512 .f32 := win1_3.stage (cfg1.slots t 3)
abbrev hOut (t : Fin cfg1.N) : (mOut t).IsWhole := hstage1_3 ((cfg1.slots t 3).cast nbuf1_3)
/-- The accumulator: a whole scoped buffer of the kernel's own, passed beside the windows. -/
abbrev mAcc : Memref sig .tc .vmem S512x512 .f32 := Memref.whole cc1_scratch0
abbrev accView : View sig .tc .vmem S512x512 .f32 := mAcc.view

/-! ## The resting invariant, split -/

/-- The first region's eight staging buffers, each whole at some contents, beside a resource `S` standing where
    the accumulator's buffer stands in the list of this region's scoped buffers that are no staging buffer of its own. -/
def beside (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What stands in the accumulator's place may be exchanged. -/
theorem beside_mono (c : Dev nD) {S S' : sProp 𝕄} (h : S ⊢ S') : beside (F := F) c S ⊢ beside c S' := by
  unfold beside
  iintro ⟨H1, H2, H3, H4, H5, H6, H7, H8, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply h; iexact HS

/-- The region's resting invariant (its scoped buffers that are no staging buffer of its own, each at some contents,
    and the generator register at some state) with the accumulator named as a memref. -/
theorem resting_eq (c : Dev nD) :
    (Pipeline.ΦA spec1 c : sProp 𝕄) = iprop(beside c iprop(∃ d, owns (c : Thread nD τ) mAcc fullShare d) ∗ (∃ r, prngReg c r)) := by
  unfold Pipeline.ΦA beside; rw [scopedRest1_eq]; simp only [mAcc, owns_whole]; try rfl

end Cert.KernelIdeal.Matmul

end
-- ==== Proof.MatmulRunFirst.lean ====
/-
  The blocked matrix product with a carried accumulator, case k = 0: the body's run at a point where it first clears the accumulator and then adds the block
  product into it, the output block untouched. The accumulator arrives at any contents; what the two stores leave in it
  (last store first) is found by running the body symbolically.
-/
import proofs.«101401_j57595511439819_1_alg».proof.Proof.MatmulCases

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the three inputs at contents `x0 x1 x2`, the output buffer at contents `y` handed back untouched,
    the accumulator at anything — the body at a point with k = 0 runs to its end with the inputs as they were and the
    accumulator holding the pieces `LA` written over what it held. -/
noncomputable def runFirst (c : Dev nD) (i : grid1.Coords) (aR : Memref sig .tc .vmem S512x1024 .f32) (hR : aR.IsWhole) (aW : Memref sig .tc .vmem S1024x512 .bf16) (hW : aW.IsWhole) (aB : Memref sig .tc .vmem S1x512 .f32) (hB : aB.IsWhole) (aO : Memref sig .tc .vmem S512x512 .f32) (hO : aO.IsWhole) (aA : Memref sig .tc .vmem S512x512 .f32) (hA : aA.IsWhole) (h0 : isFirst i) (h3 : ¬isLast i)
    (x0 : Vec F S512x1024 .f32) (x1 : Vec F S1024x512 .bf16) (x2 : Vec F S1x512 .f32) :
    Σ' (LO : List (View.Piece (Elt F) S512x512 .f32)), { LA : List (View.Piece (Elt F) S512x512 .f32) //
      ∀ (y : Vec F S512x512 .f32) (E : Set ℕ) (K : PUnit → sProp 𝕄),
        iprop(owns (c : Thread nD τ) aR fullShare x0 ∗ owns (c : Thread nD τ) aW fullShare x1 ∗ owns (c : Thread nD τ) aB fullShare x2 ∗ owns (c : Thread nD τ) aO fullShare y ∗ (∃ d, owns (c : Thread nD τ) aA fullShare d)
            ∗ (iprop(owns (c : Thread nD τ) aR fullShare x0 ∗ owns (c : Thread nD τ) aW fullShare x1 ∗ owns (c : Thread nD τ) aB fullShare x2 ∗ owns (c : Thread nD τ) aO fullShare y ∗ (∃ f, aA.view.loc (c : Thread nD τ) ↦[aA.view.set]{fullShare} aA.view.writes (Elt F) f LA)) -∗ K ⟨⟩))
          ⊢ wp frame (wpE (defs₀ (F := F)) Variants.none c none) E (cc1__matmul_kernel i aR hR aW hW aB hB aO hO aA hA) K } := by
  refine ⟨[], ?_, fun y E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := hR.eq_unread hf0; obtain rfl := hW.eq_unread hf1; obtain rfl := hB.eq_unread hf2; obtain rfl := hO.eq_unread hf3
    sl_exec (disch := first | exact h0 | exact h3)
    sl_step
    iapply Hk
    isplitl [H0]
    · iexists _; isplitr; · ipureintro; exact hR.read_unread _
      iexact H0
    isplitl [H1]
    · iexists _; isplitr; · ipureintro; exact hW.read_unread _
      iexact H1
    isplitl [H2]
    · iexists _; isplitr; · ipureintro; exact hB.read_unread _
      iexact H2
    isplitl [H3]
    · iexists _; isplitr; · ipureintro; exact hO.read_unread _
      iexact H3
    iexists _; iexact HA

end Cert.KernelIdeal.Matmul

end
-- ==== Proof.MatmulRunMiddle.lean ====
/-
  The blocked matrix product with a carried accumulator, case k = 1 or 2: the body's run at a point where it only adds the block product into the accumulator,
  which arrives holding what the point before left; the output block is untouched.
-/
import proofs.«101401_j57595511439819_1_alg».proof.Proof.MatmulCases

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the inputs at `x0 x1 x2`, the output buffer at `y` handed back untouched, the accumulator at
    `a` — the body at a point with 0 < k < 3 runs to its end with the inputs as they were and the accumulator holding the
    pieces `LA` written over `a`. -/
noncomputable def runMiddle (c : Dev nD) (i : grid1.Coords) (aR : Memref sig .tc .vmem S512x1024 .f32) (hR : aR.IsWhole) (aW : Memref sig .tc .vmem S1024x512 .bf16) (hW : aW.IsWhole) (aB : Memref sig .tc .vmem S1x512 .f32) (hB : aB.IsWhole) (aO : Memref sig .tc .vmem S512x512 .f32) (hO : aO.IsWhole) (aA : Memref sig .tc .vmem S512x512 .f32) (hA : aA.IsWhole) (h0 : ¬isFirst i) (h3 : ¬isLast i)
    (x0 : Vec F S512x1024 .f32) (x1 : Vec F S1024x512 .bf16) (x2 : Vec F S1x512 .f32) (a : Vec F S512x512 .f32) :
    Σ' (LO : List (View.Piece (Elt F) S512x512 .f32)), { LA : List (View.Piece (Elt F) S512x512 .f32) //
      ∀ (y : Vec F S512x512 .f32) (E : Set ℕ) (K : PUnit → sProp 𝕄),
        iprop(owns (c : Thread nD τ) aR fullShare x0 ∗ owns (c : Thread nD τ) aW fullShare x1 ∗ owns (c : Thread nD τ) aB fullShare x2 ∗ owns (c : Thread nD τ) aO fullShare y ∗ owns (c : Thread nD τ) aA fullShare a
            ∗ (iprop(owns (c : Thread nD τ) aR fullShare x0 ∗ owns (c : Thread nD τ) aW fullShare x1 ∗ owns (c : Thread nD τ) aB fullShare x2 ∗ owns (c : Thread nD τ) aO fullShare y ∗ (∃ f, aA.view.loc (c : Thread nD τ) ↦[aA.view.set]{fullShare} aA.view.writes (Elt F) f LA)) -∗ K ⟨⟩))
          ⊢ wp frame (wpE (defs₀ (F := F)) Variants.none c none) E (cc1__matmul_kernel i aR hR aW hW aB hB aO hO aA hA) K } := by
  refine ⟨[], ?_, fun y E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := hR.eq_unread hf0; obtain rfl := hW.eq_unread hf1; obtain rfl := hB.eq_unread hf2; obtain rfl := hO.eq_unread hf3; obtain rfl := hA.eq_unread hfa
    sl_exec (disch := first | exact h0 | exact h3)
    sl_step
    iapply Hk
    isplitl [H0]
    · iexists _; isplitr; · ipureintro; exact hR.read_unread _
      iexact H0
    isplitl [H1]
    · iexists _; isplitr; · ipureintro; exact hW.read_unread _
      iexact H1
    isplitl [H2]
    · iexists _; isplitr; · ipureintro; exact hB.read_unread _
      iexact H2
    isplitl [H3]
    · iexists _; isplitr; · ipureintro; exact hO.read_unread _
      iexact H3
    iexists _; iexact HA

end Cert.KernelIdeal.Matmul

end
-- ==== Proof.MatmulRunLast.lean ====
/-
  The blocked matrix product with a carried accumulator, case k = 3: the body's run at a point where it adds the last block product into the accumulator and then
  stores accumulator plus bias row into the output block, whose buffer arrives at anything.
-/
import proofs.«101401_j57595511439819_1_alg».proof.Proof.MatmulCases

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the inputs at `x0 x1 x2`, the output buffer at anything, the accumulator at `a` — the body at a
    point with k = 3 runs to its end with the inputs as they were, the accumulator holding the pieces `LA` written over
    `a` and the output buffer holding the pieces `LO` written over what it held. -/
noncomputable def runLast (c : Dev nD) (i : grid1.Coords) (aR : Memref sig .tc .vmem S512x1024 .f32) (hR : aR.IsWhole) (aW : Memref sig .tc .vmem S1024x512 .bf16) (hW : aW.IsWhole) (aB : Memref sig .tc .vmem S1x512 .f32) (hB : aB.IsWhole) (aO : Memref sig .tc .vmem S512x512 .f32) (hO : aO.IsWhole) (aA : Memref sig .tc .vmem S512x512 .f32) (hA : aA.IsWhole) (h0 : ¬isFirst i) (h3 : isLast i)
    (x0 : Vec F S512x1024 .f32) (x1 : Vec F S1024x512 .bf16) (x2 : Vec F S1x512 .f32) (a : Vec F S512x512 .f32) :
    Σ' (LO : List (View.Piece (Elt F) S512x512 .f32)), { LA : List (View.Piece (Elt F) S512x512 .f32) //
      ∀ (E : Set ℕ) (K : PUnit → sProp 𝕄),
        iprop(owns (c : Thread nD τ) aR fullShare x0 ∗ owns (c : Thread nD τ) aW fullShare x1 ∗ owns (c : Thread nD τ) aB fullShare x2 ∗ (∃ d, owns (c : Thread nD τ) aO fullShare d) ∗ owns (c : Thread nD τ) aA fullShare a
            ∗ (iprop(owns (c : Thread nD τ) aR fullShare x0 ∗ owns (c : Thread nD τ) aW fullShare x1 ∗ owns (c : Thread nD τ) aB fullShare x2 ∗ (∃ f, aO.view.loc (c : Thread nD τ) ↦[aO.view.set]{fullShare} aO.view.writes (Elt F) f LO) ∗ (∃ f, aA.view.loc (c : Thread nD τ) ↦[aA.view.set]{fullShare} aA.view.writes (Elt F) f LA)) -∗ K ⟨⟩))
          ⊢ wp frame (wpE (defs₀ (F := F)) Variants.none c none) E (cc1__matmul_kernel i aR hR aW hW aB hB aO hO aA hA) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := hR.eq_unread hf0; obtain rfl := hW.eq_unread hf1; obtain rfl := hB.eq_unread hf2; obtain rfl := hA.eq_unread hfa
    sl_exec (disch := first | exact h0 | exact h3)
    sl_step
    iapply Hk
    isplitl [H0]
    · iexists _; isplitr; · ipureintro; exact hR.read_unread _
      iexact H0
    isplitl [H1]
    · iexists _; isplitr; · ipureintro; exact hW.read_unread _
      iexact H1
    isplitl [H2]
    · iexists _; isplitr; · ipureintro; exact hB.read_unread _
      iexact H2
    isplitl [H3]; · iexists _; iexact H3
    iexists _; iexact HA

end Cert.KernelIdeal.Matmul

end
-- ==== Proof.Matmul.lean ====
/-
  The blocked matrix product with a carried accumulator, part two: the region's proof data and its body
  obligation, at the region-entry contents `V`.

  What the accumulator and the output block's buffer hold after the body at the n-th point is defined by
  recursion on n, following the three cases: at k = 0 the accumulator is what that case's stores leave, from
  the point's blocks alone; at k = 1, 2 what the case's store leaves over the accumulator of the point
  before; at k = 3 likewise, and the output buffer is what the final store leaves. (At k < 3 the output
  window is idle: its entry in the pair is a placeholder nothing consults.) The region's invariant before
  point n > 0 holds the accumulator at the contents the point before left — that is how the sum travels
  from one contraction block to the next.
-/
import proofs.«101401_j57595511439819_1_alg».proof.Proof.MatmulRunFirst
import proofs.«101401_j57595511439819_1_alg».proof.Proof.MatmulRunMiddle
import proofs.«101401_j57595511439819_1_alg».proof.Proof.MatmulRunLast

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Taking the accumulator out of the resting invariant and putting it back -/

theorem beside_out (c : Dev nD) (S : sProp 𝕄) : beside (F := F) c S ⊢ iprop(beside c iprop(emp) ∗ S) := by
  unfold beside
  iintro ⟨H1, H2, H3, H4, H5, H6, H7, H8, HS⟩
  isplitr [HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  iexact HS

theorem beside_in (c : Dev nD) (S : sProp 𝕄) : iprop(beside (F := F) c iprop(emp) ∗ S) ⊢ beside c S := by
  unfold beside
  iintro ⟨⟨H1, H2, H3, H4, H5, H6, H7, H8, -⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

section
variable (V : (c : Dev nD) → (b : Ref sig .tc) → Buf (Elt F) ((c : Thread nD τ).loc b))

/-! ## What each case leaves, at a point -/

/-- The output buffer's entry at a point where the window is idle: nothing reads it. -/
def idleOut : Vec F S512x512 .f32 := outView.read (Elt F) outView.junk

/-- The accumulator after a point with k = 0: that case's two stores read back. -/
def accAfterFirst (c : Dev nD) (t : Fin cfg1.N) (h0 : t.val % 4 = 0) (h3 : ¬t.val % 4 = 3) : Vec F S512x512 .f32 :=
  accView.read (Elt F) (accView.writes (Elt F) accView.junk (runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.1)

theorem accFirst_cover (c : Dev nD) (t : Fin cfg1.N) (h0 : t.val % 4 = 0) (h3 : ¬t.val % 4 = 3) (y : S512x512.Idx) :
    ∃ pc ∈ (runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.1, y ∈ pc.1.set :=
  View.cover_of_tiledL _ S512x512.size (by sl_kernel_rfl) y

/-- The accumulator after a point with k = 1 or 2, over the contents `a` the point before left. -/
def accAfterMiddle (c : Dev nD) (t : Fin cfg1.N) (h0 : ¬t.val % 4 = 0) (h3 : ¬t.val % 4 = 3) (a : Vec F S512x512 .f32) : Vec F S512x512 .f32 :=
  accView.read (Elt F) (accView.writes (Elt F) accView.junk (runMiddle c (grid1.coords t) (mRows t) (hRows t) (mWeight t) (hWeight t) (mBias t) (hBias t) (mOut t) (hOut t) mAcc (Memref.isWhole_whole _) (fun h => h0 ((isFirst_iff t).mp h)) (fun h => h3 ((isLast_iff t).mp h)) (iblk1 V c 0 t) (iblk1 V c 1 t) (iblk1 V c 2 t) a).2.1)

theorem accMiddle_cover (c : Dev nD) (t : Fin cfg1.N) (h0 : ¬t.val % 4 = 0) (h3 : ¬t.val % 4 = 3) (a : Vec F S512x512 .f32) (y : S512x512.Idx) :
    ∃ pc ∈ (runMiddle c (grid1.coords t) (mRows t) (hRows t) (mWeight t) (hWeight t) (mBias t) (hBias t) (mOut t) (hOut t) mAcc (Memref.isWhole_whole _) (fun h => h0 ((isFirst_iff t).mp h)) (fun h => h3 ((isLast_iff t).mp h)) (iblk1 V c 0 t) (iblk1 V c 1 t) (iblk1 V c 2 t) a).2.1, y ∈ pc.1.set :=
  View.cover_of_tiledL _ S512x512.size (by sl_kernel_rfl) y

/-- The accumulator after a point with k = 3, over `a`. -/
def accAfterLast (c : Dev nD) (t : Fin cfg1.N) (h0 : ¬t.val % 4 = 0) (h3 : t.val % 4 = 3) (a : Vec F S512x512 .f32) : Vec F S512x512 .f32 :=
  accView.read (Elt F) (accView.writes (Elt F) accView.junk (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).2.1)

theorem accLast_cover (c : Dev nD) (t : Fin cfg1.N) (h0 : ¬t.val % 4 = 0) (h3 : t.val % 4 = 3) (a : Vec F S512x512 .f32) (y : S512x512.Idx) :
    ∃ pc ∈ (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).2.1, y ∈ pc.1.set :=
  View.cover_of_tiledL _ S512x512.size (by sl_kernel_rfl) y

/-- The output block's buffer after a point with k = 3, over the accumulator `a` the point before left. -/
def outAfterLast (c : Dev nD) (t : Fin cfg1.N) (h0 : ¬t.val % 4 = 0) (h3 : t.val % 4 = 3) (a : Vec F S512x512 .f32) : Vec F S512x512 .f32 :=
  outView.read (Elt F) (outView.writes (Elt F) outView.junk (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).1)

theorem outLast_cover (c : Dev nD) (t : Fin cfg1.N) (h0 : ¬t.val % 4 = 0) (h3 : t.val % 4 = 3) (a : Vec F S512x512 .f32) (y : S512x512.Idx) :
    ∃ pc ∈ (runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) a).1, y ∈ pc.1.set :=
  View.cover_of_tiledL _ S512x512.size (by sl_kernel_rfl) y

/-! ## Point by point -/

/-- The pair (output block's buffer, accumulator) after the body at position `n`. -/
def heldAfter (c : Dev nD) : (n : ℕ) → n < cfg1.N → Vec F S512x512 .f32 × Vec F S512x512 .f32
  | 0, hn => (idleOut, accAfterFirst V c ⟨0, hn⟩ (Nat.zero_mod 4) (fun h => absurd (show (0 : ℕ) % 4 = 3 from h) (by decide)))
  | n + 1, hn =>
    if h0 : (n + 1) % 4 = 0 then
      (idleOut, accAfterFirst V c ⟨n + 1, hn⟩ h0 (fun h => by have h' : (n + 1) % 4 = 3 := h; omega))
    else
      if h3 : (n + 1) % 4 = 3 then
        (outAfterLast V c ⟨n + 1, hn⟩ h0 h3 (heldAfter c n (Nat.lt_of_succ_lt hn)).2, accAfterLast V c ⟨n + 1, hn⟩ h0 h3 (heldAfter c n (Nat.lt_of_succ_lt hn)).2)
      else
        (idleOut, accAfterMiddle V c ⟨n + 1, hn⟩ h0 h3 (heldAfter c n (Nat.lt_of_succ_lt hn)).2)

theorem heldAfter_first (c : Dev nD) (t : Fin cfg1.N) (h0 : t.val % 4 = 0) (h3 : ¬t.val % 4 = 3) :
    heldAfter V c t.val t.isLt = (idleOut, accAfterFirst V c t h0 h3) := by
  obtain ⟨n, hn⟩ := t
  cases n with
  | zero => rfl
  | succ n => exact (dif_pos h0).trans rfl

theorem heldAfter_middle (c : Dev nD) (t : Fin cfg1.N) (h0 : ¬t.val % 4 = 0) (h3 : ¬t.val % 4 = 3) :
    heldAfter V c t.val t.isLt = (idleOut, accAfterMiddle V c t h0 h3 (heldAfter V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_neg h3).trans rfl)

theorem heldAfter_last (c : Dev nD) (t : Fin cfg1.N) (h0 : ¬t.val % 4 = 0) (h3 : t.val % 4 = 3) :
    heldAfter V c t.val t.isLt = (outAfterLast V c t h0 h3 (heldAfter V c (t.val - 1) (Nat.lt_of_le_of_lt (Nat.sub_le _ _) t.isLt)).2, accAfterLast V c t h0 h3 (heldAfter V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_pos h3).trans rfl)

/-! ## The invariant that carries the accumulator -/

/-- Before position `n`: at the start the region's resting invariant (the accumulator at anything); afterwards
    the same with the accumulator at what the point before left. -/
def carried (c : Dev nD) : (n : ℕ) → n ≤ cfg1.N → sProp 𝕄
  | 0, _ => Pipeline.ΦA spec1 c
  | n + 1, hn => iprop(beside c (owns (c : Thread nD τ) mAcc fullShare (heldAfter V c n hn).2) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(beside c (owns (c : Thread nD τ) mAcc fullShare (heldAfter V c n hn).2) ∗ (∃ r, prngReg c r)) := rfl

theorem carried_pos (c : Dev nD) (n : ℕ) (h : n ≤ cfg1.N) (hz : n ≠ 0) :
    carried V c n h = iprop(beside c (owns (c : Thread nD τ) mAcc fullShare (heldAfter V c (n - 1) (by omega)).2) ∗ (∃ r, prngReg c r)) := by
  cases n with
  | zero => exact absurd rfl hz
  | succ n => rfl

/-! ## The proof data -/

/-- Pipeline 1's proof data on core `c`: the arrays as the region finds them; after the body at a point each
    input's buffer still at its block and the output's at `heldAfter`'s first entry; the invariant `carried`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (heldAfter V c t.val t.isLt).1
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem carried_castSucc (c : Dev nD) (t : Fin cfg1.N) :
    (dat1 V c).Φ t.castSucc = carried V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (heldAfter V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- A live input window's buffer is handed back holding its block. -/
theorem leaves_rows (c : Dev nD) (t : Fin cfg1.N) : (dat1 V c).leavesExact 0 t = owns (c : Thread nD τ) (mRows t) fullShare (iblk1 V c 0 t) := by
  rw [show (dat1 V c).leavesExact 0 t = owns (c : Thread nD τ) (mRows t) fullShare ((dat1 V c).after 0 t) from by
    unfold Dat.leavesExact; rw [live_rows t], after1_0]
theorem leaves_weight (c : Dev nD) (t : Fin cfg1.N) : (dat1 V c).leavesExact 1 t = owns (c : Thread nD τ) (mWeight t) fullShare (iblk1 V c 1 t) := by
  rw [show (dat1 V c).leavesExact 1 t = owns (c : Thread nD τ) (mWeight t) fullShare ((dat1 V c).after 1 t) from by
    unfold Dat.leavesExact; rw [live_weight t], after1_1]
theorem leaves_bias (c : Dev nD) (t : Fin cfg1.N) : (dat1 V c).leavesExact 2 t = owns (c : Thread nD τ) (mBias t) fullShare (iblk1 V c 2 t) := by
  rw [show (dat1 V c).leavesExact 2 t = owns (c : Thread nD τ) (mBias t) fullShare ((dat1 V c).after 2 t) from by
    unfold Dat.leavesExact; rw [live_bias t], after1_2]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mRows t) fullShare ((dat1 V c).before 0 t d))
    ∗ (∃ d, owns (c : Thread nD τ) (mWeight t) fullShare ((dat1 V c).before 1 t d))
    ∗ (∃ d, owns (c : Thread nD τ) (mBias t) fullShare ((dat1 V c).before 2 t d))
    ∗ (∃ d, owns (c : Thread nD τ) (mOut t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; k decides the case; the invariant hands the body
    the accumulator (at anything at the very first point, else at what the point before left) and takes it back at
    this point's contents; the output's buffer is handed back untouched before the last contraction block and with
    the final store's contents at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = carried V c (t.val + 1) t.isLt from rfl, carried_succ]
  rw [leaves_rows, leaves_weight, leaves_bias]
  have hN : t.val < 512 := lt_of_lt_of_eq t.isLt (show cfg1.N = 512 from N_1)
  by_cases h0 : t.val % 4 = 0
  · have h3 : ¬t.val % 4 = 3 := by omega
    rw [Dat.leavesExact_idle (dat1 V c) 3 t (idle_out t (fun h => h3 ((isLast_iff t).mp h))) (noFlush_out t (fun h => h3 ((isLast_iff t).mp h)))]
    rw [heldAfter_first V c t h0 h3]
    unfold accAfterFirst; (try dsimp only)
    by_cases hz : t.val = 0
    · rw [carried_castSucc V c t, carried_zero V c _ _ hz, resting_eq]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accFirst_cover V c t h0 h3)
        iexact Hg
      isplitl [Ho]; · iexact Ho
      isplitl [H0]; · iexact H0
      isplitl [H1]; · iexact H1
      isplitl [H2]; · iexact H2
      iexists _; iexact H3
    · rw [carried_castSucc V c t, carried_pos V c _ _ hz]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runFirst c (grid1.coords t) (mRows t) (hRows t) (mWeight t) (hWeight t) (mBias t) (hBias t) (mOut t) (hOut t) mAcc (Memref.isWhole_whole _) ((isFirst_iff t).mpr h0) (fun h => h3 ((isLast_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accFirst_cover V c t h0 h3)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat1 V c).leavesExact 3 t = owns (c : Thread nD τ) (mOut t) fullShare ((dat1 V c).after 3 t) from by
        unfold Dat.leavesExact; rw [live_out t ((isLast_iff t).mpr h3)], after1_3]
      rw [heldAfter_last V c t h0 h3]
      unfold outAfterLast accAfterLast; (try dsimp only)
      rw [carried_castSucc V c t, carried_pos V c _ _ hz]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runLast c (grid1.coords t) (mRows t) (hRows t) (mWeight t) (hWeight t) (mBias t) (hBias t) (mOut t) (hOut t) mAcc (Memref.isWhole_whole _) (fun h => h0 ((isFirst_iff t).mp h)) ((isLast_iff t).mpr h3) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accLast_cover V c t h0 h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t h0 h3 _)
    · rw [Dat.leavesExact_idle (dat1 V c) 3 t (idle_out t (fun h => h3 ((isLast_iff t).mp h))) (noFlush_out t (fun h => h3 ((isLast_iff t).mp h)))]
      rw [heldAfter_middle V c t h0 h3]
      unfold accAfterMiddle; (try dsimp only)
      rw [carried_castSucc V c t, carried_pos V c _ _ hz]
      iintro ⟨⟨HB, Hg⟩, Ho, ⟨%d0, H0⟩, ⟨%d1, H1⟩, ⟨%d2, H2⟩, ⟨%d3, H3⟩⟩
      ihave HB' := (beside_out c _) $$ HB
      icases HB' with ⟨HB, HA⟩
      iapply ((runMiddle c (grid1.coords t) (mRows t) (hRows t) (mWeight t) (hWeight t) (mBias t) (hBias t) (mOut t) (hOut t) mAcc (Memref.isWhole_whole _) (fun h => h0 ((isFirst_iff t).mp h)) (fun h => h3 ((isLast_iff t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HB Hg]
      · isplitl [HA HB]
        · iapply (beside_in c _)
          isplitl [HB]; · iexact HB
          unfold owns; iexists _; isplitr
          swap; · iexact HA
          ipureintro; exact View.read_writes_of_cover _ _ _ _ _ (accMiddle_cover V c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem enter1 (c : Dev nD) : Pipeline.ΦA spec1 c ⊢ (dat1 V c).Φ 0 := by
  rw [show (dat1 V c).Φ 0 = carried V c 0 (Nat.zero_le _) from rfl, carried_zero V c 0 _ rfl]

/-- After the last point the invariant gives the resting invariant back: the accumulator's contents are forgotten. -/
theorem leave1 (c : Dev nD) : (dat1 V c).Φ (Fin.last cfg1.N) ⊢ Pipeline.ΦA spec1 c := by
  have hN : cfg1.N = 512 := N_1
  rw [show (dat1 V c).Φ (Fin.last cfg1.N) = carried V c (Fin.last cfg1.N).val (Nat.le_of_lt_succ (Fin.last cfg1.N).isLt) from rfl,
    carried_pos V c _ _ (by rw [Fin.val_last]; omega), resting_eq]
  exact sep_mono (beside_mono c (by iintro H; iexists _; iexact H)) .rfl

end

end Cert.KernelIdeal.Matmul

end
-- ==== Proof.Whole.lean ====
/-
  The whole program: @main is the weight-sampling region, two stretches of host operations computing the
  bias row, and the blocked-matrix-product region. Here the four are composed.

  The contents of the TensorCore's unscoped buffers at each boundary are a fold from the launch memory: a
  region replaces its windows' arrays by what its write-backs leave and keeps every other buffer; a host
  stretch applies its operations. Each region is entered from the fold's contents before it and left at the
  contents after it, its windows' arrays split out of the buffers at entry and put back at exit, the
  generator register lent to the region's invariant and returned. The run then says: every weakly fair
  execution of @main terminates without a fault, and in the final memory every unscoped buffer holds the
  fold's last contents — in particular each argument array its launch contents (no host operation writes
  one, and a region only reads it or bypasses it) and the result array what the second region's write-backs
  leave.
-/
import proofs.«101401_j57595511439819_1_alg».proof.Proof.Sample
import proofs.«101401_j57595511439819_1_alg».proof.Proof.Matmul
import proofs.«101401_j57595511439819_1_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen Cert.KernelIdeal.Sample Cert.KernelIdeal.Matmul
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (and at the first region's entry: no host operation precedes it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the weight-sampling region: its arrays at what its write-backs leave, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem exit0_arr (c : Dev nD) (w : Fin cfg0.W) : (dat0 (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the softplus of the bias scale, -/
abbrev W2 : Dev nD → Valuation τ sig (Elt F) := fun c => StableHlo.after hostOps1 (W1 m ρ c)
/-- and after the bias row is formed (the second region's entry). -/
abbrev W3 : Dev nD → Valuation τ sig (Elt F) := fun c => StableHlo.after hostOps1_1 (W2 m ρ c)
abbrev V3 : (c : Dev nD) → (b : Ref sig .tc) → Buf (Elt F) ((c : Thread nD τ).loc b) := fun c b => W3 m ρ c b
/-- After the matrix-product region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit1_arr (c : Dev nD) (w : Fin cfg1.W) : (dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem end_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1_1 _ hostOps1_1_writes (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl
theorem end_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1_1 _ hostOps1_1_writes (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem end_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1_1 _ hostOps1_1_writes (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem end_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1_1 _ hostOps1_1_writes (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem end_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1_1 _ hostOps1_1_writes (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem end_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1_1 _ hostOps1_1_writes (by decide)
    _ = W1 m ρ c (Proc.devRef .tc main_arg5) := StableHlo.after_of_writes_sub hostOps1 _ hostOps1_writes (by decide)
    _ = W0 m ρ c (Proc.devRef .tc main_arg5) := (W1_arr m ρ c 2).trans (((dat0 (V0 m ρ) c).arrAt_in 2 rfl _).trans (A_eq0 (V0 m ρ) c 2))
    _ = m ((c : Thread nD τ).loc main_arg5) := rfl
theorem end_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1_1 _ hostOps1_1_writes (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The weight-sampling region: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from `W3`, left at `W4`. Its invariant takes the generator register and the
    scoped buffers in as the resting invariant and gives them back as such, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hleave : (pdats m ρ 1 c).Φ (Fin.last _) ⊢ (Pipeline.ΦA spec1 c : sProp 𝕄) := leave1 (V3 m ρ) c
    refine hleave.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores
    terminates, nothing faulting, and every final memory has the result array at what the second region's write-backs
    leave and each argument array at its launch contents. -/
theorem run_all : θ_run defs (onTc (τ := τ) (main (F := F))) ⟨m, fun _ => 0, ρ⟩ (fun r => ∀ c : Dev nD,
      r.2.mem ((c.tc : Thread nD τ).loc main_v4) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 3),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c),
       (h c _ (mem_uc main_arg6 (by decide))).trans (end_main_arg6 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_all m ρ)

end Cert.KernelIdeal.Whole

end
-- ==== Proof.Spec.lean ====
/-
  The mathematics both programs compute, on the extended reals.

  A dense layer with reparameterised weights: from a location array, a scale array passed through
  softplus, and a noise array, the weight is  w = w_loc + softplus(w_std) · eps_w  and the bias
  b = b_loc + softplus(b_std) · eps_b ; the output is  x · w + b , row i and column j being
  (Σ_k x[i,k] · w[k,j]) + b[0,j].

  softplus is spelt max(x, 0) + log(1 + exp(−|x − 0|)), with |y| = max(y, −y): the form in which both
  programs evaluate it once their not-a-number guard (a comparison of a value with itself, never
  true of an extended real) has chosen its second branch.
-/
import Idealize.ShloMosaic.PureOps.Ideal
import Idealize.ShloMosaic.Lib.ValueIdx

noncomputable section

namespace Cert.Dense

open Idealize.ShloMosaic Idealize.ShloMosaic.ValueIdx
open scoped BigOperators

/-- The index spaces: the batch of inputs (8192 rows of 4096), a square weight (4096 × 4096), a bias row. -/
abbrev SX : Shape := ⟨2, ![8192, 4096]⟩
abbrev SW : Shape := ⟨2, ![4096, 4096]⟩
abbrev SB : Shape := ⟨2, ![1, 4096]⟩

/-- softplus on the extended reals: max(x, 0) + log(1 + exp(−|x − 0|)). -/
def softplus (x : EReal) : EReal :=
  max x 0 + Ideal.log1p (Ideal.exp (-(max (x - 0) (-(x - 0)))))

/-- The sampled weight, entry by entry: location plus softplus of the scale times the noise. -/
def weight (wl ws ew : SW.Idx → EReal) : SW.Idx → EReal :=
  fun i => wl i + softplus (ws i) * ew i

/-- The sampled bias, entry by entry. -/
def bias (bl bs eb : SB.Idx → EReal) : SB.Idx → EReal :=
  fun i => bl i + softplus (bs i) * eb i

/-- One entry of the affine map: row `r` of `x` against column `c` of `w`, plus the bias of column `c`. -/
def affineAt (x : SX.Idx → EReal) (w : SW.Idx → EReal) (b : SB.Idx → EReal) (r : Fin 8192) (c : Fin 4096) : EReal :=
  (∑ k : Fin 4096, x (ix2 r k) * w (ix2 k c)) + b (ix2 0 c)

/-- The affine map as an array. -/
def affine (x : SX.Idx → EReal) (w : SW.Idx → EReal) (b : SB.Idx → EReal) : SX.Idx → EReal :=
  fun i => affineAt x w b (i 0) (i 1)

/-- The whole layer: the function of the seven argument arrays that both programs compute. -/
def layer (x : SX.Idx → EReal) (wl ws : SW.Idx → EReal) (bl bs : SB.Idx → EReal) (ew : SW.Idx → EReal)
    (eb : SB.Idx → EReal) : SX.Idx → EReal :=
  affine x (weight wl ws ew) (bias bl bs eb)

theorem affine_ix2 (x : SX.Idx → EReal) (w : SW.Idx → EReal) (b : SB.Idx → EReal) (r : Fin 8192) (c : Fin 4096) :
    affine x w b (ix2 r c) = affineAt x w b r c := rfl

end Cert.Dense

end
-- ==== Proof.SampleValue.lean ====
/- REGION 0's VALUE at the ideal values: after the weight-sampling call the output array holds, entry by entry,
   `mean + softplus(deviation parameter) * noise` of the three argument arrays as the region finds them — ONE function
   of the arguments, `Cert.Dense.weight`.

   The road: (1) the body's payload read at one index is the weight's defining expression (the not-a-number guard
   compares a value with itself, which no extended real satisfies, so the select takes its second branch; the
   zero literal is `0`; `0 − y = −y`; rounding to bf16 is the identity here); (2) the four windows have the same
   block index at every grid point, `(t / 4, t % 4)` in blocks of 512 x 1024 (decided over the 32 points), so what
   point `t` writes back is block `t` of the weight array; (3) every entry `(r, s)` of the 4096 x 4096 array lies in
   the block of the point `(r / 512) * 4 + s / 1024`, so the blocks cover the array and it ends holding the weight. -/
import proofs.«101401_j57595511439819_1_alg».proof.Proof.Sample
import proofs.«101401_j57595511439819_1_alg».proof.Proof.Spec
import Idealize.ShloMosaic.Lib.Pipeline.Value
import Idealize.ShloMosaic.Lib.ValueIdx
import Idealize.ShloMosaic.PureOps.Ideal.Laws

noncomputable section

namespace Cert.KernelIdeal.SampleValue

open Cert.KernelIdeal Cert.KernelIdeal.Gen Cert.KernelIdeal.Sample
open Idealize.ShloMosaic Idealize.ShloMosaic.TcCoe Idealize.SL.Sem Idealize.ShloMosaic.ValueIdx
open Idealize.ShloMosaic.Pipeline (Dat)

/-- The body's access offsets are zero on both axes. -/
theorem hz : (![0, 0] : Fin 2 → Nat) = fun _ => 0 := funext fun a => by fin_cases a <;> rfl

/-! ## The payload at one index -/

set_option maxHeartbeats 400000 in
/-- The body's payload read at an index of the block: the mean there plus softplus of the deviation parameter there
    times the noise there.  The guard `y ≠ y` is false of every extended real, so the select yields
    `max(y, 0) + log1p(exp(0 − |y − 0|))`; the zero literal is `0` and `0 − z = −z`. -/
private theorem pay_apply (v0 v1 v16 : Vec Ideal S512x1024 .f32) (j : S512x1024.Idx) :
    k0_pay1 (F := Ideal) v0 v1 v16 j = v0 j + Cert.Dense.softplus (v1 j) * v16 j := by
  have hg : ∀ y : EReal, Ideal.cmp .one y y = 0#1 := fun y => by simp [Ideal.cmp]
  show (v0 j : EReal) + Scalar.select (Ideal.cmp .one ((v1 j : EReal) - Ideal.ofBits .f32 0x00000000#32) ((v1 j : EReal) - Ideal.ofBits .f32 0x00000000#32))
      ((v1 j : EReal) + Ideal.ofBits .f32 0x00000000#32)
      (max (v1 j : EReal) (Ideal.ofBits .f32 0x00000000#32)
        + Ideal.log1p (Ideal.exp (Ideal.ofBits .f32 0x00000000#32 - max ((v1 j : EReal) - Ideal.ofBits .f32 0x00000000#32) (-((v1 j : EReal) - Ideal.ofBits .f32 0x00000000#32))))) * (v16 j : EReal) = _
  rw [hg, select_zero, Ideal.ofBits_zero_f32, zero_sub]
  rfl

/-- The weight's defining equation, with the three arguments read at array indices that are all one index. -/
private theorem weight_at (a1 a2 a5 : S4096x4096.Idx → EReal) (k0 k1 k2 k3 : S4096x4096.Idx) (h0 : k0 = k3) (h1 : k1 = k3) (h2 : k2 = k3) :
    a1 k0 + Cert.Dense.softplus (a2 k1) * a5 k2 = Cert.Dense.weight a1 a2 a5 k3 := by
  subst h0 h1 h2; rfl

/-! ## The index maps, decided once over the grid -/

set_option maxHeartbeats 400000 in
/-- At every one of the 32 grid points each input window's block index is the output window's, on both axes, and
    the output's is `(t / 4, t % 4)`. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) = t.val / 4 ∧ win0_3.index t (1 : Fin 2) = t.val % 4 :=
  (by decide +kernel : ∀ t : Fin grid0.N, _)

-- the TensorCore's buffer contents when the region is entered
variable (V : (c : Dev nD) → (b : Ref sig .tc) → Buf (Elt Ideal) ((c : Thread nD τ).loc b))

/-! ## What a point writes back -/

set_option maxHeartbeats 400000 in
/-- WHAT POINT `t` WRITES BACK is block `t` of the weight array of the three argument arrays: the body's one store
    covers its buffer, its loads read whole blocks, and entry `j` of each input block sits at the array index
    `block index × block size + j`, the same index for all four windows. -/
theorem flushed_eq (c : Dev nD) (t : Fin cfg0.N) :
    (dat0 (F := Ideal) V c).flushed 3 t
      = ((cfg0.win 3).blk t).view.read (Elt Ideal) (Cert.Dense.weight (V c main_arg1) (V c main_arg2) (V c main_arg5)) := by
  show (cfg0.win 3).cut (grid0.coords t) ((dat0 (F := Ideal) V c).after 3 t) = _
  rw [after0_3]
  unfold out0_3
  rw [View.canon_unit_zero hz]
  simp only [View.ld_unit_zero (S := S512x1024) hz]
  obtain ⟨e00, e01, e10, e11, e20, e21, -, -⟩ := idx_facts t
  funext j
  refine (pay_apply _ _ _ j).trans ?_
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; rw [e00]
    | ⟨1, _⟩ => show win0_0.index t (1 : Fin 2) * 1024 + 1 * (j 1).val = win0_3.index t (1 : Fin 2) * 1024 + 1 * (j 1).val; rw [e01]
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; rw [e10]
    | ⟨1, _⟩ => show win0_1.index t (1 : Fin 2) * 1024 + 1 * (j 1).val = win0_3.index t (1 : Fin 2) * 1024 + 1 * (j 1).val; rw [e11]
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; rw [e20]
    | ⟨1, _⟩ => show win0_2.index t (1 : Fin 2) * 1024 + 1 * (j 1).val = win0_3.index t (1 : Fin 2) * 1024 + 1 * (j 1).val; rw [e21]
  exact weight_at (V c main_arg1) (V c main_arg2) (V c main_arg5) _ _ _ _ h0 h1 h2

/-! ## The blocks cover the array -/

/-- An index of the output array is in point `t`'s block iff each coordinate is in the block's range on its axis. -/
theorem mem_blk (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

set_option maxHeartbeats 400000 in
/-- Every entry `(r, s)` of the 4096 x 4096 output array is in the block of the point `(r / 512) * 4 + s / 1024`,
    which writes back (every point does). -/
theorem covered (i : S4096x4096.Idx) :
    ∃ t : Fin cfg0.N, (cfg0.win 3).flush t = true ∧ i ∈ ((cfg0.win 3).blk t).view.set := by
  have hN : grid0.N = 32 := N_0
  have hi0 : (i 0).val < 4096 := (i 0).isLt
  have hi1 : (i 1).val < 4096 := (i 1).isLt
  obtain ⟨t, ht⟩ : ∃ t : Fin grid0.N, t.val = (i 0).val / 512 * 4 + (i 1).val / 1024 := ⟨⟨(i 0).val / 512 * 4 + (i 1).val / 1024, by omega⟩, rfl⟩
  obtain ⟨-, -, -, -, -, -, q0, q1⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The output array after the region -/

/-- THE OUTPUT ARRAY after the region's 32 points is the weight array of the three argument arrays as the region
    finds them: each point writes its block of it, and the blocks cover the array. -/
theorem final0 (c : Dev nD) :
    (Sample.dat0 (F := Ideal) V c).arrAt 3 cfg0.N = Cert.Dense.weight (V c main_arg1) (V c main_arg2) (V c main_arg5) :=
  (dat0 (F := Ideal) V c).arrAt_eq_of_cover 3 _ (fun t _ => flushed_eq V c t) (fun i => covered i)

end Cert.KernelIdeal.SampleValue

end
-- ==== Proof.MatmulPayload.lean ====
/-
  The arithmetic of the two kernels' stored values, read at one index of a block, on the extended reals.

  The matmul kernel stores three values into its blocks: the zero block that opens an accumulation, the
  accumulator plus the product of an x block and a weight block, and the accumulator plus the bias row.
  The weight-sampling kernel stores location + softplus(scale) · noise. Read at the ideal instance (every
  operation exact, a change of format the identity) each is the textbook expression at the index. The
  host computes the bias row by the same softplus expression. Last, a sum over 4096 terms is the sum
  over four consecutive blocks of 1024 terms: the law that joins the four accumulation steps.
-/
import proofs.«101401_j57595511439819_1_alg».proof.Proof.Gen.KernelIdeal.Skeleton
import proofs.«101401_j57595511439819_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MatmulValue

open Cert.KernelIdeal Cert.KernelIdeal.Gen Idealize.ShloMosaic Idealize.ShloMosaic.ValueIdx
open scoped BigOperators

/-- A sum over 4096 terms, cut into four consecutive blocks of 1024: the index k is kb · 1024 + kk. -/
theorem sum_blocks (f : Fin 4096 → EReal) :
    (∑ kb : Fin 4, ∑ kk : Fin 1024, f ⟨kb.val * 1024 + kk.val, by have := kb.isLt; have := kk.isLt; omega⟩) = ∑ k : Fin 4096, f k := by
  rw [← Equiv.sum_comp (finProdFinEquiv.trans (finCongr (show 4 * 1024 = 4096 by norm_num))) f, Fintype.sum_prod_type]
  refine Finset.sum_congr rfl fun kb _ => Finset.sum_congr rfl fun kk _ => ?_
  refine congrArg f (Fin.ext ?_)
  show kb.val * 1024 + kk.val = kk.val + 1024 * kb.val
  omega

/-- The block that opens an accumulation is zero everywhere. -/
theorem zero_block (j : S512x512.Idx) : k1_pay1 (F := Ideal) j = 0 := by
  unfold k1_pay1
  rw [shapeCast_self]
  exact Ideal.ofBits_zero_f32

/-- The last step adds the bias row to every row of the accumulator. -/
theorem bias_block (v16 : Vec Ideal S512x512 .f32) (v17 : Vec Ideal S1x512 .f32) (p q : Fin 512) :
    k1_pay3 (F := Ideal) v16 v17 (ix2 p q) = v16 (ix2 p q) + v17 (ix2 0 q) := by
  unfold k1_pay3
  rw [shapeCast_self]
  exact congrArg (v16 (ix2 p q) + ·) (broadcastTo_1b_ab_apply v17 _ p q)

/-- No extended real differs from itself: the not-a-number guard is never taken. -/
theorem cmp_one_self (a : EReal) : Ideal.cmp .one a a = 0#1 := by simp [Ideal.cmp]
theorem cmp_une_self (a : EReal) : Ideal.cmp .une a a = 0#1 := by simp [Ideal.cmp]

/-- The kernel's guarded softplus, which writes 0 − |y| for −|y|, is softplus. -/
theorem softplus_kernel (y : EReal) :
    Scalar.select (Ideal.cmp .one (y - 0) (y - 0)) (y + 0)
      (max y 0 + Ideal.log1p (Ideal.exp (0 - max (y - 0) (-(y - 0))))) = Cert.Dense.softplus y := by
  rw [cmp_one_self, select_zero, zero_sub]
  rfl

/-- The host's guarded softplus is softplus. -/
theorem softplus_host (y : EReal) :
    Scalar.select (Ideal.cmp .une (y - 0) (y - 0)) (y + 0)
      (max y 0 + Ideal.log1p (Ideal.exp (-(max (y - 0) (-(y - 0)))))) = Cert.Dense.softplus y := by
  rw [cmp_une_self, select_zero]
  rfl

/-- The sampled weight block: location plus softplus of the scale times the noise, entry by entry
    (the narrowing to sixteen bits is the identity on the extended reals). -/
theorem sample_block (v0 v1 v16 : Vec Ideal S512x1024 .f32) (j : S512x1024.Idx) :
    k0_pay1 (F := Ideal) v0 v1 v16 j = v0 j + Cert.Dense.softplus (v1 j) * v16 j := by
  unfold k0_pay1
  show v0 j + Scalar.select (Ideal.cmp .one (v1 j - Ideal.ofBits .f32 0x00000000#32) (v1 j - Ideal.ofBits .f32 0x00000000#32))
      (v1 j + Ideal.ofBits .f32 0x00000000#32)
      (max (v1 j) (Ideal.ofBits .f32 0x00000000#32) + Ideal.log1p (Ideal.exp (Ideal.ofBits .f32 0x00000000#32
        - max (v1 j - Ideal.ofBits .f32 0x00000000#32) (-(v1 j - Ideal.ofBits .f32 0x00000000#32))))) * v16 j = _
  rw [Ideal.ofBits_zero_f32, softplus_kernel]

-- The zero row the host's softplus compares and adds against: the scalar zero, broadcast.
set_option quotPrecheck false in
local notation "hostZero" => (broadcastInDim S1x4096 ![] bcast_S_S1x4096 (constant (F := Ideal) S_ FTy.f32 0x00000000#32))

theorem hostZero_apply (i : S1x4096.Idx) : (hostZero : FVec Ideal S1x4096 .f32) i = 0 :=
  (broadcastInDim_apply _ bcast_S_S1x4096 (constant (F := Ideal) S_ FTy.f32 0x00000000#32) i (fun a => a.elim0) (fun a => a.elim0)).trans
    Ideal.ofBits_zero_f32

/-- The bias row the host computes is the specification's bias. -/
theorem host_bias (bl bs eb : FVec Ideal S1x4096 .f32) :
    (addf bl (mulf (select (cmpf .une (subf bs hostZero) (subf bs hostZero)) (addf bs hostZero)
      (addf (maximumf bs hostZero) (Host.log1p (F := Ideal) (Host.exp (F := Ideal) (Host.negf (F := Ideal) (Host.absf (F := Ideal) (subf bs hostZero))))))) eb)
        : FVec Ideal S1x4096 .f32) = Cert.Dense.bias bl bs eb := by
  funext i
  show bl i + Scalar.select (Ideal.cmp .une (bs i - (hostZero : FVec Ideal S1x4096 .f32) i) (bs i - (hostZero : FVec Ideal S1x4096 .f32) i))
      (bs i + (hostZero : FVec Ideal S1x4096 .f32) i)
      (max (bs i) ((hostZero : FVec Ideal S1x4096 .f32) i) + Ideal.log1p (Ideal.exp (-(max (bs i - (hostZero : FVec Ideal S1x4096 .f32) i)
        (-(bs i - (hostZero : FVec Ideal S1x4096 .f32) i)))))) * eb i = bl i + Cert.Dense.softplus (bs i) * eb i
  rw [hostZero_apply, softplus_host]

/-- The contraction's operand indices at output index i and contraction index q, coordinate by coordinate:
    the left operand is read at (row of i, q), the right at (q, column of i). -/
theorem lhs_step_0 (i : S512x512.Idx) (q : Cert.KernelIdeal.dot_S512x1024_S1024x512_S512x512_1_0_0_1_n_n.contr.Idx) :
    (Cert.KernelIdeal.dot_S512x1024_S1024x512_S512x512_1_0_0_1_n_n.lhsIdx i q 0).val = (i 0).val := by
  unfold DotDims.lhsIdx
  rw [dif_neg (show ¬(0 : Fin S512x1024.rank) ∈ Cert.KernelIdeal.dot_S512x1024_S1024x512_S512x512_1_0_0_1_n_n.lhsBatch by decide),
    dif_pos (show (0 : Fin S512x1024.rank) ∈ Cert.KernelIdeal.dot_S512x1024_S1024x512_S512x512_1_0_0_1_n_n.lhsNonContracting by decide)]
  rfl
theorem lhs_step_1 (i : S512x512.Idx) (q : Cert.KernelIdeal.dot_S512x1024_S1024x512_S512x512_1_0_0_1_n_n.contr.Idx) :
    (Cert.KernelIdeal.dot_S512x1024_S1024x512_S512x512_1_0_0_1_n_n.lhsIdx i q 1).val = (q ⟨0, by decide⟩).val :=
  Cert.KernelIdeal.dot_S512x1024_S1024x512_S512x512_1_0_0_1_n_n.lhsIdx_val_of_single rfl i q
theorem rhs_step_0 (i : S512x512.Idx) (q : Cert.KernelIdeal.dot_S512x1024_S1024x512_S512x512_1_0_0_1_n_n.contr.Idx) :
    (Cert.KernelIdeal.dot_S512x1024_S1024x512_S512x512_1_0_0_1_n_n.rhsIdx i q 0).val = (q ⟨0, by decide⟩).val :=
  Cert.KernelIdeal.dot_S512x1024_S1024x512_S512x512_1_0_0_1_n_n.rhsIdx_val_of_single rfl i q
theorem rhs_step_1 (i : S512x512.Idx) (q : Cert.KernelIdeal.dot_S512x1024_S1024x512_S512x512_1_0_0_1_n_n.contr.Idx) :
    (Cert.KernelIdeal.dot_S512x1024_S1024x512_S512x512_1_0_0_1_n_n.rhsIdx i q 1).val = (i 1).val := by
  unfold DotDims.rhsIdx
  rw [dif_neg (show ¬(1 : Fin S1024x512.rank) ∈ Cert.KernelIdeal.dot_S512x1024_S1024x512_S512x512_1_0_0_1_n_n.rhsBatch by decide),
    dif_pos (show (1 : Fin S1024x512.rank) ∈ Cert.KernelIdeal.dot_S512x1024_S1024x512_S512x512_1_0_0_1_n_n.rhsNonContracting by decide)]
  rfl

/-- One accumulation step: the accumulator plus the product of the x block (its narrowing to sixteen
    bits the identity on the extended reals) and the weight block, the contraction read as a sum over
    the 1024 shared coordinates. -/
theorem step_block (v3 : Vec Ideal S512x1024 .f32) (v5 : Vec Ideal S512x512 .f32) (v6 : Vec Ideal S1024x512 .bf16) (p q : Fin 512) :
    k1_pay2 (F := Ideal) v3 v5 v6 (ix2 p q) = v5 (ix2 p q) + ∑ k : Fin 1024, v3 (ix2 p k) * v6 (ix2 k q) := by
  unfold k1_pay2
  rw [shapeCast_self, shapeCast_self]
  refine congrArg (v5 (ix2 p q) + ·) ?_
  refine (Ideal.matmul_constant_zero_apply (φ₁ := .bf16) (φ₂ := .bf16) Cert.KernelIdeal.dot_S512x1024_S1024x512_S512x512_1_0_0_1_n_n none _ _ (ix2 p q)).trans ?_
  rw [← Equiv.sum_comp (contrEquiv1 Cert.KernelIdeal.dot_S512x1024_S1024x512_S512x512_1_0_0_1_n_n 1024 rfl rfl).symm]
  refine Finset.sum_congr rfl fun k _ => ?_
  have hk := contrEquiv1_symm_val Cert.KernelIdeal.dot_S512x1024_S1024x512_S512x512_1_0_0_1_n_n 1024 rfl rfl k
  have el : Cert.KernelIdeal.dot_S512x1024_S1024x512_S512x512_1_0_0_1_n_n.lhsIdx (ix2 p q)
      ((contrEquiv1 Cert.KernelIdeal.dot_S512x1024_S1024x512_S512x512_1_0_0_1_n_n 1024 rfl rfl).symm k) = ix2 p k :=
    funext fun a => Fin.ext (by
      match a with
      | ⟨0, _⟩ => exact lhs_step_0 _ _
      | ⟨1, _⟩ => exact (lhs_step_1 _ _).trans hk)
  have er : Cert.KernelIdeal.dot_S512x1024_S1024x512_S512x512_1_0_0_1_n_n.rhsIdx (ix2 p q)
      ((contrEquiv1 Cert.KernelIdeal.dot_S512x1024_S1024x512_S512x512_1_0_0_1_n_n 1024 rfl rfl).symm k) = ix2 k q :=
    funext fun a => Fin.ext (by
      match a with
      | ⟨0, _⟩ => exact (rhs_step_0 _ _).trans hk
      | ⟨1, _⟩ => exact rhs_step_1 _ _)
  rw [el, er]
  rfl

end Cert.KernelIdeal.MatmulValue

end
-- ==== Proof.EntryValues.lean ====
/-
  What the matrix-product region finds at its entry, on the extended reals.

  Between the launch and the second region the buffers change twice: the weight-sampling region fills the
  weight array, and two stretches of host operations form the bias row. Nothing writes the array of inputs,
  so the region finds it as launched. The weight array is written only by the first region, which leaves
  location + softplus(scale) · noise of the three weight arguments as launched. The bias row is the host's
  value b_loc + softplus(b_std) · eps_b: the second stretch multiplies the softplus of the first stretch by
  the noise and adds the location, and the three arguments it reads are as launched, no earlier step having
  written them.
-/
import proofs.«101401_j57595511439819_1_alg».proof.Proof.Whole
import proofs.«101401_j57595511439819_1_alg».proof.Proof.SampleValue
import proofs.«101401_j57595511439819_1_alg».proof.Proof.MatmulPayload
import proofs.«101401_j57595511439819_1_alg».proof.Proof.Spec
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo

set_option maxHeartbeats 400000 in
/-- From any contents W of the buffers, the two host stretches leave in the bias row the bias of what W holds at
    the three bias arguments: the operations compose to b_loc + softplus(b_std) · eps_b, none of them writing an
    argument. -/
theorem bias_after (W : Valuation τ sig (Elt Ideal)) :
    StableHlo.after (hostOps1_1 (F := Ideal)) (StableHlo.after (hostOps1 (F := Ideal)) W) (Proc.devRef .tc main_v3)
      = Cert.Dense.bias (W (Proc.devRef .tc main_arg3)) (W (Proc.devRef .tc main_arg4)) (W (Proc.devRef .tc main_arg6)) := by
  refine Eq.trans ?_ (Cert.KernelIdeal.MatmulValue.host_bias _ _ _)
  after_results_simp
  rfl

variable (m : (ℓ : Loc nD τ sig) → Buf (Elt Ideal) ℓ) (ρ : Dev nD → PrngReg) (c : Dev nD)

/-- The array of inputs is as launched: no host operation writes it and the first region does not touch it. -/
theorem entry_rows : Whole.V3 (F := Ideal) m ρ c main_arg0 = m ((c : Thread nD τ).loc main_arg0) :=
  calc Whole.W3 m ρ c (Proc.devRef .tc main_arg0)
    _ = Whole.W2 m ρ c (Proc.devRef .tc main_arg0) := StableHlo.after_of_writes_sub hostOps1_1 _ hostOps1_1_writes (by decide)
    _ = Whole.W1 m ρ c (Proc.devRef .tc main_arg0) := StableHlo.after_of_writes_sub hostOps1 _ hostOps1_writes (by decide)
    _ = Whole.W0 m ρ c (Proc.devRef .tc main_arg0) := Whole.W1_of_ne m ρ c main_arg0 (by decide)
    _ = m ((c : Thread nD τ).loc main_arg0) := rfl

/-- The weight array holds the sampled weight of the three weight arguments as launched: the host stretches do not
    write it, and the first region leaves it at location + softplus(scale) · noise of the arrays it was entered with. -/
theorem entry_weight : Whole.V3 (F := Ideal) m ρ c main_v0
    = Cert.Dense.weight (m ((c : Thread nD τ).loc main_arg1)) (m ((c : Thread nD τ).loc main_arg2)) (m ((c : Thread nD τ).loc main_arg5)) :=
  calc Whole.W3 m ρ c (Proc.devRef .tc main_v0)
    _ = Whole.W2 m ρ c (Proc.devRef .tc main_v0) := StableHlo.after_of_writes_sub hostOps1_1 _ hostOps1_1_writes (by decide)
    _ = Whole.W1 m ρ c (Proc.devRef .tc main_v0) := StableHlo.after_of_writes_sub hostOps1 _ hostOps1_writes (by decide)
    _ = (Sample.dat0 (F := Ideal) (Whole.V0 m ρ) c).arrAt 3 cfg0.N := Whole.W1_arr m ρ c 3
    _ = Cert.Dense.weight (Whole.V0 m ρ c main_arg1) (Whole.V0 m ρ c main_arg2) (Whole.V0 m ρ c main_arg5) :=
        Cert.KernelIdeal.SampleValue.final0 (Whole.V0 m ρ) c
    _ = Cert.Dense.weight (m ((c : Thread nD τ).loc main_arg1)) (m ((c : Thread nD τ).loc main_arg2)) (m ((c : Thread nD τ).loc main_arg5)) := rfl

/-- The bias row holds the bias of the three bias arguments as launched. -/
theorem entry_bias : Whole.V3 (F := Ideal) m ρ c main_v3
    = Cert.Dense.bias (m ((c : Thread nD τ).loc main_arg3)) (m ((c : Thread nD τ).loc main_arg4)) (m ((c : Thread nD τ).loc main_arg6)) := by
  have h := bias_after (Whole.W1 (F := Ideal) m ρ c)
  rw [Whole.W1_of_ne m ρ c main_arg3 (by decide), Whole.W1_of_ne m ρ c main_arg4 (by decide),
    Whole.W1_of_ne m ρ c main_arg6 (by decide)] at h
  exact h

end Cert.KernelIdeal.Entry

end
-- ==== Proof.MatmulPieces.lean ====
/-
  The blocked matrix product with a carried accumulator, part three: what each case's stores leave, as the body's
  arithmetic.

  The run of a case finds, for the accumulator and for the output block, a list of stored pieces; each list's last
  store covers the whole 512 x 512 block, so the block holds that store's payload. Read through the loads the case
  makes, the payloads are: at k = 0 the block product added to the cleared accumulator; at k = 1, 2, 3 the block
  product added to the accumulator `a` of the point before; and, at k = 3, that sum plus the bias row in the output block.
-/
import proofs.«101401_j57595511439819_1_alg».proof.Proof.Matmul
import Idealize.ShloMosaic.Lib.Pipeline.Value

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Every store of the body starts at the block's origin. -/
theorem origin : (![0, 0] : Fin 2 → Nat) = fun _ => 0 := funext fun a => by fin_cases a <;> rfl

/-- Reading the accumulator's buffer back where it was given whole contents `a`. -/
theorem acc_read (a : Vec F S512x512 .f32) :
    View.read (Elt F) (View.whole cc1_scratch0 : View sig .tc .vmem S512x512 .f32) ((Memref.isWhole_whole (cc1_scratch0 : Ref sig .tc) : mAcc.IsWhole).unread a) = a :=
  Memref.IsWhole.read_unread _ a

/-- After a point with k = 0 the accumulator holds the point's block product added to the cleared block. -/
theorem accFirst_eq (c : Dev nD) (t : Fin cfg1.N) (h0 : t.val % 4 = 0) (h3 : ¬t.val % 4 = 3) :
    accAfterFirst V c t h0 h3 = k1_pay2 (iblk1 V c 0 t) (k1_pay1 (F := F)) (iblk1 V c 1 t) := by
  unfold accAfterFirst
  rw [View.read_writes_eq_canon _ _ _ (accFirst_cover V c t h0 h3)]
  unfold runFirst
  dsimp only
  sl_unfold_words
  rw [View.canon_cons_unit_zero origin]
  simp only [View.readAt_eq_ld, Memref.IsWhole.read_unread, View.ld_unit_zero (S := S512x1024) origin, View.ld_unit_zero (S := S512x512) origin, View.ld_unit_zero (S := S1024x512) origin, View.ld_unit_zero (S := S1x512) origin]
  rw [View.readCov_unit_zero (S := S512x512) _ origin]

/-- After a point with k = 1 or 2 it holds the point's block product added to what the point before left. -/
theorem accMiddle_eq (c : Dev nD) (t : Fin cfg1.N) (h0 : ¬t.val % 4 = 0) (h3 : ¬t.val % 4 = 3) (a : Vec F S512x512 .f32) :
    accAfterMiddle V c t h0 h3 a = k1_pay2 (iblk1 V c 0 t) a (iblk1 V c 1 t) := by
  unfold accAfterMiddle
  rw [View.read_writes_eq_canon _ _ _ (accMiddle_cover V c t h0 h3 a)]
  unfold runMiddle
  dsimp only
  sl_unfold_words
  rw [View.canon_unit_zero origin]
  simp only [View.readAt_eq_ld, Memref.IsWhole.read_unread, View.ld_unit_zero (S := S512x1024) origin, View.ld_unit_zero (S := S512x512) origin, View.ld_unit_zero (S := S1024x512) origin, View.ld_unit_zero (S := S1x512) origin]
  rw [acc_read]

/-- The same at k = 3. -/
theorem accLast_eq (c : Dev nD) (t : Fin cfg1.N) (h0 : ¬t.val % 4 = 0) (h3 : t.val % 4 = 3) (a : Vec F S512x512 .f32) :
    accAfterLast V c t h0 h3 a = k1_pay2 (iblk1 V c 0 t) a (iblk1 V c 1 t) := by
  unfold accAfterLast
  rw [View.read_writes_eq_canon _ _ _ (accLast_cover V c t h0 h3 a)]
  unfold runLast
  dsimp only
  sl_unfold_words
  rw [View.canon_unit_zero origin]
  simp only [View.readAt_eq_ld, Memref.IsWhole.read_unread, View.ld_unit_zero (S := S512x1024) origin, View.ld_unit_zero (S := S512x512) origin, View.ld_unit_zero (S := S1024x512) origin, View.ld_unit_zero (S := S1x512) origin]
  rw [acc_read]

/-- At k = 3 the output block's buffer holds that accumulator plus the bias row. -/
theorem outLast_eq (c : Dev nD) (t : Fin cfg1.N) (h0 : ¬t.val % 4 = 0) (h3 : t.val % 4 = 3) (a : Vec F S512x512 .f32) :
    outAfterLast V c t h0 h3 a = k1_pay3 (k1_pay2 (iblk1 V c 0 t) a (iblk1 V c 1 t)) (iblk1 V c 2 t) := by
  unfold outAfterLast
  rw [View.read_writes_eq_canon _ _ _ (outLast_cover V c t h0 h3 a)]
  unfold runLast
  dsimp only
  sl_unfold_words
  rw [View.canon_unit_zero origin]
  simp only [View.readAt_eq_ld, Memref.IsWhole.read_unread, View.ld_unit_zero (S := S512x1024) origin, View.ld_unit_zero (S := S512x512) origin, View.ld_unit_zero (S := S1024x512) origin, View.ld_unit_zero (S := S1x512) origin]
  rw [View.readCov_unit_zero (S := S512x512) _ origin, acc_read]

end

end Cert.KernelIdeal.Matmul

end
-- ==== Proof.MatmulValue.lean ====
/- REGION 1's VALUE at the ideal values: after the blocked matrix product the output array holds, entry by entry,
   the affine map of the three arrays the region finds — row r of the inputs against column s of the weight, plus
   the bias of column s: ONE function of the region-entry contents, `Cert.Dense.affine`.

   The grid is 16 x 8 x 4 (row block i, column block j, contraction block k; k fastest): the point numbered t has
   i = t / 32, j = (t / 4) % 8, k = t % 4. The output block (i, j) is written back only at k = 3, the point
   t = 32 i + 4 j + 3. There the output buffer is the accumulator plus the bias row, the accumulator being the block
   product of the point added to what the point before left, and so on back to k = 0, where the accumulator was
   cleared. Entry (p, q) of the block is therefore
       ((((0 + s_0) + s_1) + s_2) + s_3) + bias(0, 512 j + q),
       s_k = Σ_{kk < 1024} x(512 i + p, 1024 k + kk) · w(1024 k + kk, 512 j + q),
   and the four partial sums are the sum over all 4096 contraction indices cut into consecutive blocks of 1024.
   Only 0 + a = a and the grouping of a finite sum are used: nothing about finiteness of the values.
   Every entry (r, s) of the 8192 x 4096 array lies in the block written back at the point
   32 (r / 512) + 4 (s / 512) + 3, so the written blocks cover the array. -/
import proofs.«101401_j57595511439819_1_alg».proof.Proof.MatmulPieces
import proofs.«101401_j57595511439819_1_alg».proof.Proof.MatmulPayload
import proofs.«101401_j57595511439819_1_alg».proof.Proof.Spec
import Idealize.ShloMosaic.Lib.Pipeline.Value
import Idealize.ShloMosaic.Lib.ValueIdx

noncomputable section

namespace Cert.KernelIdeal.MatmulValue2

open Cert.KernelIdeal Cert.KernelIdeal.Gen Cert.KernelIdeal.Matmul Cert.KernelIdeal.MatmulValue
open Idealize.ShloMosaic Idealize.ShloMosaic.TcCoe Idealize.SL.Sem Idealize.ShloMosaic.ValueIdx
open Idealize.ShloMosaic.Pipeline (Dat)
open scoped BigOperators

/-! ## The arithmetic of one output entry -/

set_option maxHeartbeats 400000 in
/-- Entry (p, q) of the block stored at k = 3, when the four row blocks `xs kb` and the four weight blocks `ws kb`
    are the slices of arrays `X`, `W` at row `R`, column `C` and contraction indices `1024 kb + kk`, and the bias
    piece is `B` at column `C`: the cleared block plus the four block products plus the bias is the whole
    contraction sum plus the bias. -/
theorem block_entry (X : Cert.Dense.SX.Idx → EReal) (W : Cert.Dense.SW.Idx → EReal) (B : Cert.Dense.SB.Idx → EReal)
    (R : Fin 8192) (C : Fin 4096)
    (xs : Fin 4 → Vec Ideal S512x1024 .f32) (ws : Fin 4 → Vec Ideal S1024x512 .bf16) (b : Vec Ideal S1x512 .f32) (p q : Fin 512)
    (hx : ∀ (kb : Fin 4) (kk : Fin 1024), xs kb (ix2 p kk) = X (ix2 R ⟨kb.val * 1024 + kk.val, by have := kb.isLt; have := kk.isLt; omega⟩))
    (hw : ∀ (kb : Fin 4) (kk : Fin 1024), ws kb (ix2 kk q) = W (ix2 ⟨kb.val * 1024 + kk.val, by have := kb.isLt; have := kk.isLt; omega⟩ C))
    (hb : b (ix2 0 q) = B (ix2 0 C)) :
    k1_pay3 (F := Ideal) (k1_pay2 (xs 3) (k1_pay2 (xs 2) (k1_pay2 (xs 1) (k1_pay2 (xs 0) (k1_pay1 (F := Ideal)) (ws 0)) (ws 1)) (ws 2)) (ws 3)) b (ix2 p q)
      = Cert.Dense.affineAt X W B R C := by
  rw [bias_block, step_block, step_block, step_block, step_block, zero_block, zero_add, hb]
  unfold Cert.Dense.affineAt
  refine Eq.trans ?_ (congrArg (· + B (ix2 0 C)) (sum_blocks (fun k => X (ix2 R k) * W (ix2 k C))))
  rw [Fin.sum_univ_four]
  simp only [hx, hw]

/-- An entry of the affine map at an array index given by its two coordinates. -/
private theorem affine_at (X : Cert.Dense.SX.Idx → EReal) (W : Cert.Dense.SW.Idx → EReal) (B : Cert.Dense.SB.Idx → EReal)
    (k : Cert.Dense.SX.Idx) (r : Fin 8192) (cc : Fin 4096) (hk : k = ix2 r cc) (val : EReal)
    (h : val = Cert.Dense.affineAt X W B r cc) : val = Cert.Dense.affine X W B k := by
  subst hk; exact h

/-! ## Four steps of the carried accumulator -/

-- the TensorCore's buffer contents when the region is entered
variable (V : (c : Dev nD) → (b : Ref sig .tc) → Buf (Elt Ideal) ((c : Thread nD τ).loc b))

/-- The pair held after a position depends on the position's number alone. -/
theorem heldAfter_congr (c : Dev nD) {n n' : ℕ} (h : n < cfg1.N) (h' : n' < cfg1.N) (e : n = n') :
    heldAfter (F := Ideal) V c n h = heldAfter V c n' h' := by subst e; rfl

private theorem snd_pair {α β : Type} (a : α) (b : β) : (a, b).2 = b := rfl
private theorem fst_pair {α β : Type} (a : α) (b : β) : (a, b).1 = a := rfl

set_option maxHeartbeats 400000 in
/-- At k = 0 the accumulator is left at the point's block product added to the cleared block. -/
theorem acc_first (c : Dev nD) (s : Fin cfg1.N) (h0 : s.val % 4 = 0) :
    (heldAfter (F := Ideal) V c s.val s.isLt).2 = k1_pay2 (iblk1 V c 0 s) (k1_pay1 (F := Ideal)) (iblk1 V c 1 s) := by
  have h3 : ¬ s.val % 4 = 3 := by omega
  rw [heldAfter_first V c s h0 h3, snd_pair]
  exact accFirst_eq V c s h0 h3

set_option maxHeartbeats 400000 in
/-- At k = 1, 2 it is left at the point's block product added to what the point before (`s'`) left. -/
theorem acc_middle (c : Dev nD) (s s' : Fin cfg1.N) (h0 : ¬ s.val % 4 = 0) (h3 : ¬ s.val % 4 = 3) (e : s.val - 1 = s'.val) :
    (heldAfter (F := Ideal) V c s.val s.isLt).2 = k1_pay2 (iblk1 V c 0 s) (heldAfter (F := Ideal) V c s'.val s'.isLt).2 (iblk1 V c 1 s) := by
  rw [heldAfter_middle V c s h0 h3, snd_pair, accMiddle_eq V c s h0 h3, heldAfter_congr V c _ s'.isLt e]

set_option maxHeartbeats 400000 in
/-- At k = 3 the output block's buffer is left at that sum plus the bias row. -/
theorem out_last (c : Dev nD) (s s' : Fin cfg1.N) (h0 : ¬ s.val % 4 = 0) (h3 : s.val % 4 = 3) (e : s.val - 1 = s'.val) :
    (heldAfter (F := Ideal) V c s.val s.isLt).1
      = k1_pay3 (k1_pay2 (iblk1 V c 0 s) (heldAfter (F := Ideal) V c s'.val s'.isLt).2 (iblk1 V c 1 s)) (iblk1 V c 2 s) := by
  rw [heldAfter_last V c s h0 h3, fst_pair, outLast_eq V c s h0 h3, heldAfter_congr V c _ s'.isLt e]

set_option maxHeartbeats 400000 in
/-- Four consecutive points `s0 … s3` with k = 0, 1, 2, 3: what the output block's buffer holds after the last, as
    the body's arithmetic over the four points' blocks. -/
theorem held_last (c : Dev nD) (s0 s1 s2 s3 : Fin cfg1.N) (h : s0.val % 4 = 0)
    (e1 : s1.val = s0.val + 1) (e2 : s2.val = s0.val + 2) (e3 : s3.val = s0.val + 3) :
    (heldAfter (F := Ideal) V c s3.val s3.isLt).1
      = k1_pay3 (k1_pay2 (iblk1 V c 0 s3) (k1_pay2 (iblk1 V c 0 s2) (k1_pay2 (iblk1 V c 0 s1) (k1_pay2 (iblk1 V c 0 s0) (k1_pay1 (F := Ideal)) (iblk1 V c 1 s0)) (iblk1 V c 1 s1)) (iblk1 V c 1 s2)) (iblk1 V c 1 s3)) (iblk1 V c 2 s3) := by
  rw [out_last V c s3 s2 (by omega) (by omega) (by omega), acc_middle V c s2 s1 (by omega) (by omega) (by omega),
    acc_middle V c s1 s0 (by omega) (by omega) (by omega), acc_first V c s0 h]

/-! ## The index maps, decided once over the grid -/

set_option maxHeartbeats 1000000 in
/-- At every one of the 512 points: the rows' block index is (i, k), the weight's (k, j), the bias piece's (0, j),
    the output's (i, j), with i = t / 32, j = (t / 4) % 8, k = t % 4. -/
theorem idx_facts : ∀ t : Fin cfg1.N,
    win1_0.index t (0 : Fin 2) = t.val / 32 ∧ win1_0.index t (1 : Fin 2) = t.val % 4
    ∧ win1_1.index t (0 : Fin 2) = t.val % 4 ∧ win1_1.index t (1 : Fin 2) = t.val / 4 % 8
    ∧ win1_2.index t (0 : Fin 2) = 0 ∧ win1_2.index t (1 : Fin 2) = t.val / 4 % 8
    ∧ win1_3.index t (0 : Fin 2) = t.val / 32 ∧ win1_3.index t (1 : Fin 2) = t.val / 4 % 8 :=
  (by decide +kernel : ∀ t : Fin grid1.N, _)

/-! ## Where a block's entry sits in its array: block index × block size + the coordinate inside the block -/

theorem pt_lt (s : Fin cfg1.N) : s.val < 512 := lt_of_lt_of_eq s.isLt (show cfg1.N = 512 from N_1)

set_option maxHeartbeats 400000 in
/-- Entry (p, kk) of the rows' block at point `s` is the input array's entry (512 i + p, 1024 k + kk). -/
theorem rows_emb (s : Fin cfg1.N) (p : Fin 512) (kk : Fin 1024) (r : Fin 8192) (k : Fin 4096)
    (hr : r.val = s.val / 32 * 512 + p.val) (hk : k.val = s.val % 4 * 1024 + kk.val) :
    ((cfg1.win 0).blk s).view.emb (ix2 p kk) = ix2 r k := by
  obtain ⟨e0, e1, -⟩ := idx_facts s
  funext a; apply Fin.ext
  match a with
  | ⟨0, _⟩ => show win1_0.index s (0 : Fin 2) * 512 + 1 * p.val = r.val; rw [e0, hr]; omega
  | ⟨1, _⟩ => show win1_0.index s (1 : Fin 2) * 1024 + 1 * kk.val = k.val; rw [e1, hk]; omega

set_option maxHeartbeats 400000 in
/-- Entry (kk, q) of the weight's block at point `s` is the weight array's entry (1024 k + kk, 512 j + q). -/
theorem weight_emb (s : Fin cfg1.N) (kk : Fin 1024) (q : Fin 512) (k : Fin 4096) (cc : Fin 4096)
    (hk : k.val = s.val % 4 * 1024 + kk.val) (hc : cc.val = s.val / 4 % 8 * 512 + q.val) :
    ((cfg1.win 1).blk s).view.emb (ix2 kk q) = ix2 k cc := by
  obtain ⟨-, -, e0, e1, -⟩ := idx_facts s
  funext a; apply Fin.ext
  match a with
  | ⟨0, _⟩ => show win1_1.index s (0 : Fin 2) * 1024 + 1 * kk.val = k.val; rw [e0, hk]; omega
  | ⟨1, _⟩ => show win1_1.index s (1 : Fin 2) * 512 + 1 * q.val = cc.val; rw [e1, hc]; omega

set_option maxHeartbeats 400000 in
/-- Entry (0, q) of the bias piece at point `s` is the bias row's entry (0, 512 j + q). -/
theorem bias_emb (s : Fin cfg1.N) (q : Fin 512) (cc : Fin 4096) (hc : cc.val = s.val / 4 % 8 * 512 + q.val) :
    ((cfg1.win 2).blk s).view.emb (ix2 (0 : Fin 1) q) = ix2 (0 : Fin 1) cc := by
  obtain ⟨-, -, -, -, e0, e1, -⟩ := idx_facts s
  funext a; apply Fin.ext
  match a with
  | ⟨0, _⟩ => show win1_2.index s (0 : Fin 2) * 1 + 1 * 0 = 0; rw [e0]
  | ⟨1, _⟩ => show win1_2.index s (1 : Fin 2) * 512 + 1 * q.val = cc.val; rw [e1, hc]; omega

set_option maxHeartbeats 400000 in
/-- Entry (p, q) of the output block at point `s` is the output array's entry (512 i + p, 512 j + q). -/
theorem out_emb (s : Fin cfg1.N) (p q : Fin 512) (r : Fin 8192) (cc : Fin 4096)
    (hr : r.val = s.val / 32 * 512 + p.val) (hc : cc.val = s.val / 4 % 8 * 512 + q.val) :
    ((cfg1.win 3).blk s).view.emb (ix2 p q) = ix2 r cc := by
  obtain ⟨-, -, -, -, -, -, e0, e1⟩ := idx_facts s
  funext a; apply Fin.ext
  match a with
  | ⟨0, _⟩ => show win1_3.index s (0 : Fin 2) * 512 + 1 * p.val = r.val; rw [e0, hr]; omega
  | ⟨1, _⟩ => show win1_3.index s (1 : Fin 2) * 512 + 1 * q.val = cc.val; rw [e1, hc]; omega

/-! ## What a flushing point writes back -/

set_option maxHeartbeats 1000000 in
/-- WHAT A POINT THAT WRITES BACK (k = 3) WRITES is its block of the affine map of the three arrays the region finds:
    the three points before it are k = 0, 1, 2 of the same (i, j), their row and weight blocks are the four
    consecutive contraction slices, and entry (p, q) is `block_entry`. -/
theorem flushed_eq (c : Dev nD) (t : Fin cfg1.N) (hf : (cfg1.win 3).flush t = true) :
    (dat1 (F := Ideal) V c).flushed 3 t
      = ((cfg1.win 3).blk t).view.read (Elt Ideal) (Cert.Dense.affine (V c main_arg0) (V c main_v0) (V c main_v3)) := by
  have h3 : t.val % 4 = 3 := (flush1_3 t).mp hf
  have ht : t.val < 512 := pt_lt t
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  obtain ⟨pts, hpts⟩ : ∃ pts : Fin 4 → Fin cfg1.N, ∀ kb : Fin 4, (pts kb).val = t.val - 3 + kb.val :=
    ⟨fun kb => ⟨t.val - 3 + kb.val, lt_of_lt_of_eq (by have := kb.isLt; omega : t.val - 3 + kb.val < 512) (show (512 : ℕ) = cfg1.N from N_1.symm)⟩, fun _ => rfl⟩
  have q0 := hpts 0
  have q1 := hpts 1
  have q2 := hpts 2
  have q3 := hpts 3
  show (cfg1.win 3).cut (grid1.coords t) ((dat1 (F := Ideal) V c).after 3 t) = _
  rw [after1_3, heldAfter_congr V c t.isLt (pts 3).isLt (by omega),
    held_last V c (pts 0) (pts 1) (pts 2) (pts 3) (by omega) (by omega) (by omega) (by omega)]
  funext j
  obtain ⟨p, q, rfl⟩ : ∃ (p : Fin 512) (q : Fin 512), j = ix2 p q := ⟨j 0, j 1, eq_ix2 j⟩
  have hR : t.val / 32 * 512 + p.val < 8192 := by omega
  have hC : t.val / 4 % 8 * 512 + q.val < 4096 := by omega
  have hout := out_emb t p q ⟨_, hR⟩ ⟨_, hC⟩ rfl rfl
  refine affine_at (V c main_arg0) (V c main_v0) (V c main_v3) _ ⟨_, hR⟩ ⟨_, hC⟩ hout _ ?_
  refine block_entry (V c main_arg0) (V c main_v0) (V c main_v3) ⟨_, hR⟩ ⟨_, hC⟩
    (fun kb => iblk1 V c 0 (pts kb)) (fun kb => iblk1 V c 1 (pts kb)) (iblk1 V c 2 (pts 3)) p q ?_ ?_ ?_
  · intro kb kk
    have hkb := kb.isLt
    exact congrArg (V c main_arg0 : Cert.Dense.SX.Idx → EReal)
      (rows_emb (pts kb) p kk ⟨_, hR⟩ ⟨kb.val * 1024 + kk.val, by omega⟩
        (by show t.val / 32 * 512 + p.val = (pts kb).val / 32 * 512 + p.val; rw [hpts kb]; omega)
        (by show kb.val * 1024 + kk.val = (pts kb).val % 4 * 1024 + kk.val; rw [hpts kb]; omega))
  · intro kb kk
    have hkb := kb.isLt
    exact congrArg (V c main_v0 : Cert.Dense.SW.Idx → EReal)
      (weight_emb (pts kb) kk q ⟨kb.val * 1024 + kk.val, by omega⟩ ⟨_, hC⟩
        (by show kb.val * 1024 + kk.val = (pts kb).val % 4 * 1024 + kk.val; rw [hpts kb]; omega)
        (by show t.val / 4 % 8 * 512 + q.val = (pts kb).val / 4 % 8 * 512 + q.val; rw [hpts kb]; omega))
  · exact congrArg (V c main_v3 : Cert.Dense.SB.Idx → EReal)
      (bias_emb (pts 3) q ⟨_, hC⟩
        (by show t.val / 4 % 8 * 512 + q.val = (pts 3).val / 4 % 8 * 512 + q.val; rw [q3]; omega))

/-! ## The blocks written back cover the array -/

/-- An index of the output array is in point `t`'s block iff each coordinate is in the block's range on its axis. -/
theorem mem_blk (t : Fin cfg1.N) (i : S8192x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v4).slice (win1_3.rect t)).set ↔ _
  rw [View.set_slice_whole, Rect.mem_set_unit]
  exact Iff.rfl

set_option maxHeartbeats 400000 in
/-- Every entry (r, s) of the 8192 x 4096 output array is in the block of the point 32 (r / 512) + 4 (s / 512) + 3,
    a point with k = 3, which writes back. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ : ∃ t : Fin cfg1.N, t.val = (i 0).val / 512 * 32 + (i 1).val / 512 * 4 + 3 :=
    ⟨⟨(i 0).val / 512 * 32 + (i 1).val / 512 * 4 + 3, by rw [show cfg1.N = 512 from N_1]; omega⟩, rfl⟩
  obtain ⟨-, -, -, -, -, -, e0, e1⟩ := idx_facts t
  refine ⟨t, (flush1_3 t).mpr (by omega), ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-! ## The output array after the region -/

/-- THE OUTPUT ARRAY after the region's 512 points is the affine map of the input rows, the weight and the bias row as
    the region finds them: each point with k = 3 writes its block of it, and those blocks cover the array. -/
theorem final1 (c : Dev nD) :
    (Matmul.dat1 (F := Ideal) V c).arrAt 3 cfg1.N = Cert.Dense.affine (V c main_arg0) (V c main_v0) (V c main_v3) :=
  (dat1 (F := Ideal) V c).arrAt_eq_of_cover 3 _ (fun t hf => flushed_eq V c t hf) (fun i => covered i)

end Cert.KernelIdeal.MatmulValue2

end
-- ==== Proof.RefValue.lean ====
/-
  The reference program computes the dense layer.

  The reference evaluates, on the host, x · (w_loc + softplus(w_std) · eps_w) + (b_loc + softplus(b_std) · eps_b),
  the bias row repeated down the 8192 rows. Its softplus is written with a guard: with y = v − 0 it returns
  v + 0 where y ≠ y and max(v, 0) + log(1 + exp(−|y|)) elsewhere. An extended real is never different from
  itself, so the guard is false at every element and the second branch is the value: the softplus of the
  specification, term for term. Read at one index (r, c), the product is the sum over k of x[r,k] · w[k,c] and
  the repeated row gives b[0,c]; that is the specification's entry (r, c).
-/
import proofs.«101401_j57595511439819_1_alg».proof.Proof.Gen.ReferenceIdeal.Run
import proofs.«101401_j57595511439819_1_alg».proof.Proof.Gen.ReferenceIdeal.Read
import proofs.«101401_j57595511439819_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- No extended real differs from itself: the comparison the guard makes is false. -/
theorem cmp_une_self (y : EReal) : Ideal.cmp .une y y = 0#1 := by
  simp [Ideal.cmp]

/-- One element of the guarded chain is the specification's softplus of that element: the guard picks the
    second branch, the zero literal is the real zero, and |y| is max(y, −y). -/
theorem softplus_elem (v : Ideal .f32) :
    Scalar.select
        (FloatOps.cmpf .une (FloatOps.subf v (FloatOps.ofBits .f32 0x00000000#32))
          (FloatOps.subf v (FloatOps.ofBits .f32 0x00000000#32)))
        (FloatOps.addf v (FloatOps.ofBits .f32 0x00000000#32))
        (FloatOps.addf (FloatOps.maximumf v (FloatOps.ofBits .f32 0x00000000#32))
          (FloatOps.hostUnary .log1p (FloatOps.hostUnary .exp (FloatOps.hostNegf (FloatOps.hostAbsf
            (FloatOps.subf v (FloatOps.ofBits .f32 0x00000000#32)))))))
      = Cert.Dense.softplus v := by
  simp only [Ideal.cmpf_def, cmp_une_self, select_zero, Ideal.ofBits_def, Ideal.ofBits_zero_f32, Ideal.addf_def,
    Ideal.subf_def, Ideal.maximumf_def, Ideal.hostUnary_log1p_def, Ideal.hostUnary_exp_def, Ideal.hostNegf_def,
    Ideal.hostAbsf_def, Ideal.negf_def, Ideal.absf_def, Cert.Dense.softplus]

/-- The weight's softplus stage, at an index. -/
theorem val_v0_at (ws : FVec Ideal S4096x4096 .f32) (i : S4096x4096.Idx) :
    val_main_v0 (F := Ideal) ws i = Cert.Dense.softplus (ws i) := by
  simp only [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  exact softplus_elem (ws i)

/-- The sampled weight, at an index. -/
theorem val_v2_at (wl ws ew : FVec Ideal S4096x4096 .f32) (i : S4096x4096.Idx) :
    val_main_v2 (F := Ideal) wl ws ew i = Cert.Dense.weight wl ws ew i := by
  simp only [val_main_v2_apply, val_main_v1_apply, val_v0_at, Ideal.addf_def, Ideal.mulf_def, Cert.Dense.weight]

/-- The bias's softplus stage, at an index. -/
theorem val_v3_at (bs : FVec Ideal S1x4096 .f32) (i : S1x4096.Idx) :
    val_main_v3 (F := Ideal) bs i = Cert.Dense.softplus (bs i) := by
  simp only [val_main_v3_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  exact softplus_elem (bs i)

/-- The sampled bias, at an index. -/
theorem val_v5_at (bl bs eb : FVec Ideal S1x4096 .f32) (i : S1x4096.Idx) :
    val_main_v5 (F := Ideal) bl bs eb i = Cert.Dense.bias bl bs eb i := by
  simp only [val_main_v5_apply, val_main_v4_apply, val_v3_at, Ideal.addf_def, Ideal.mulf_def, Cert.Dense.bias]

/-- The indices the product and the repeated row read, as pairs of coordinates. -/
theorem lidx_ix2 (r : Fin 8192) (c k : Fin 4096) : lidx_main_v6 (ix2 r c) k = ix2 r k :=
  funext fun a => Fin.ext (by match a with | ⟨0, _⟩ => rfl | ⟨1, _⟩ => rfl)
theorem ridx_ix2 (r : Fin 8192) (c k : Fin 4096) : ridx_main_v6 (ix2 r c) k = ix2 k c :=
  funext fun a => Fin.ext (by match a with | ⟨0, _⟩ => rfl | ⟨1, _⟩ => rfl)
theorem bidx_ix2 (r : Fin 8192) (c : Fin 4096) : idx_main_v7 (ix2 r c) = ix2 (0 : Fin 1) c :=
  funext fun a => Fin.ext (by match a with | ⟨0, _⟩ => rfl | ⟨1, _⟩ => rfl)

/-- The last stage of the reference, as a function of its seven argument arrays, is the layer: at (r, c) the
    product is the sum over k of x[r,k] · w[k,c], and the repeated bias row gives b[0,c]. -/
theorem val_v8_is_layer (x : FVec Ideal S8192x4096 .f32) (wl ws : FVec Ideal S4096x4096 .f32)
    (bl bs : FVec Ideal S1x4096 .f32) (ew : FVec Ideal S4096x4096 .f32) (eb : FVec Ideal S1x4096 .f32) :
    val_main_v8 (F := Ideal) x wl ws bl bs ew eb = Cert.Dense.layer x wl ws bl bs ew eb := by
  funext i
  obtain ⟨r, c, rfl⟩ : ∃ (r : Fin 8192) (c : Fin 4096), i = ix2 r c := ⟨i 0, i 1, eq_ix2 i⟩
  rw [val_main_v8_apply, val_main_v6_apply, val_main_v7_apply, val_v5_at, bidx_ix2, Ideal.addf_def]
  simp only [val_v2_at, lidx_ix2, ridx_ix2]
  rfl

/-- The reference's result term, as its run states it over the seven argument arrays, is the layer. -/
theorem ref_is_layer (x : FVec Ideal S8192x4096 .f32) (wl ws : FVec Ideal S4096x4096 .f32)
    (bl bs : FVec Ideal S1x4096 .f32) (ew : FVec Ideal S4096x4096 .f32) (eb : FVec Ideal S1x4096 .f32) :
    addf (Host.dotGeneral dot_S8192x4096_S4096x4096_S8192x4096_1_0_0_1_n_n none (x) (addf (wl) (mulf (select (cmpf .une (subf (ws) (broadcastInDim S4096x4096 ![] bcast_S_S4096x4096 (constant (F := Ideal) S_ .f32 0x00000000#32))) (subf (ws) (broadcastInDim S4096x4096 ![] bcast_S_S4096x4096 (constant (F := Ideal) S_ .f32 0x00000000#32)))) (addf (ws) (broadcastInDim S4096x4096 ![] bcast_S_S4096x4096 (constant (F := Ideal) S_ .f32 0x00000000#32))) (addf (maximumf (ws) (broadcastInDim S4096x4096 ![] bcast_S_S4096x4096 (constant (F := Ideal) S_ .f32 0x00000000#32))) (Host.log1p (Host.exp (Host.negf (Host.absf (subf (ws) (broadcastInDim S4096x4096 ![] bcast_S_S4096x4096 (constant (F := Ideal) S_ .f32 0x00000000#32))))))))) (ew)))) (broadcastInDim S8192x4096 ![0, 1] bcast_S1x4096_S8192x4096_0_1 (addf (bl) (mulf (select (cmpf .une (subf (bs) (broadcastInDim S1x4096 ![] bcast_S_S1x4096 (constant (F := Ideal) S_ .f32 0x00000000#32))) (subf (bs) (broadcastInDim S1x4096 ![] bcast_S_S1x4096 (constant (F := Ideal) S_ .f32 0x00000000#32)))) (addf (bs) (broadcastInDim S1x4096 ![] bcast_S_S1x4096 (constant (F := Ideal) S_ .f32 0x00000000#32))) (addf (maximumf (bs) (broadcastInDim S1x4096 ![] bcast_S_S1x4096 (constant (F := Ideal) S_ .f32 0x00000000#32))) (Host.log1p (Host.exp (Host.negf (Host.absf (subf (bs) (broadcastInDim S1x4096 ![] bcast_S_S1x4096 (constant (F := Ideal) S_ .f32 0x00000000#32))))))))) (eb))))
      = Cert.Dense.layer x wl ws bl bs ew eb :=
  (val_main_v8_eq (F := Ideal) x wl ws bl bs ew eb).trans (val_v8_is_layer x wl ws bl bs ew eb)

/-- Every execution of the reference ends with its result buffer holding the layer of the seven argument
    buffers' contents at launch, and the arguments unchanged. -/
theorem run_layer (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc Cert.ReferenceIdeal.main_v8)
        = Cert.Dense.layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (ref_is_layer _ _ _ _ _ _ _), (h c).2⟩)
    (Cert.ReferenceIdeal.Value.run (F := Ideal) m ρ)

end Cert.ReferenceIdeal.RefValue

end
-- ==== Proof.lean ====
/-
  A dense layer with reparameterised weights, out = x · (w_loc + softplus(w_std) · eps_w) + (b_loc + softplus(b_std) · eps_b),
  computed by two kernel regions — one forming the weight block by block, one multiplying in blocks of the
  contraction axis with an accumulator carried from block to block and the bias added at the last block — against
  the same expression evaluated whole.

  On the extended reals the two agree entry by entry. A change of float format is the identity there, so the
  weight the first region stores is the weight the reference forms; softplus is one expression on both sides once
  the not-a-number guard (a value compared with itself) is decided; the bias row is the same host expression; and
  the second region's output entry is ((((0 + s0) + s1) + s2) + s3) + b with s_k the k-th quarter of the
  contraction sum, which is the whole sum plus b because addition of extended reals is commutative and associative
  with 0 neutral — no finiteness is used.

  The frames (every execution terminates, nothing faults, the arguments end unchanged) of the program as printed
  and of its idealization are one proof read at two instances; the reference's is its run with the result dropped.
  Nothing was rewritten by the idealization, so there is nothing to preserve beyond that.
-/
import proofs.«101401_j57595511439819_1_alg».proof.Defs
import proofs.«101401_j57595511439819_1_alg».proof.Proof.Gen.Kernel
import proofs.«101401_j57595511439819_1_alg».proof.Proof.Gen.KernelIdeal
import proofs.«101401_j57595511439819_1_alg».proof.Proof.Gen.ReferenceIdeal
import proofs.«101401_j57595511439819_1_alg».proof.Proof.Gen.ReferenceIdeal.Run
import proofs.«101401_j57595511439819_1_alg».proof.Proof.Gen.ReferenceIdeal.Read
import proofs.«101401_j57595511439819_1_alg».proof.Proof.Gen.Pre_finite_inputs
import proofs.«101401_j57595511439819_1_alg».proof.Proof.AtWords.Whole
import proofs.«101401_j57595511439819_1_alg».proof.Proof.Whole
import proofs.«101401_j57595511439819_1_alg».proof.Proof.EntryValues
import proofs.«101401_j57595511439819_1_alg».proof.Proof.MatmulValue
import proofs.«101401_j57595511439819_1_alg».proof.Proof.RefValue
import Idealize.ShloMosaic.Adequacy
import Idealize.ShloMosaic.Init

noncomputable section

namespace Cert.Proof

open Idealize.ShloMosaic Idealize.ShloMosaic.TcCoe Idealize.SL.Sem

theorem frame_words : Cert.frame_Kernel (hKernel := Cert.Kernel.Gen.facts) (hPre_finite_inputs := Cert.Pre_finite_inputs.Gen.facts) :=
  fun m ρ _ => Cert.Kernel.Whole.frame (F := Bits) m ρ

theorem frame_ideal : Cert.frame_KernelIdeal (hKernelIdeal := Cert.KernelIdeal.Gen.facts) (hPre_finite_inputs := Cert.Pre_finite_inputs.Gen.facts) :=
  fun m ρ _ => Cert.KernelIdeal.Whole.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the layer's value of the (agreeing) argument arrays in their result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Dense.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩) (Cert.KernelIdeal.Whole.run_all (F := Ideal) m ρ)
    rw [Cert.KernelIdeal.MatmulValue2.final1, Cert.KernelIdeal.Entry.entry_rows, Cert.KernelIdeal.Entry.entry_weight, Cert.KernelIdeal.Entry.entry_bias]
    rfl
  · refine (θ_run Cert.ReferenceIdeal.defs _ _).mono (fun _ h c => ⟨(h c).1.trans ?_, (h c).2⟩) (Cert.ReferenceIdeal.RefValue.run_layer m' ρ')
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_words, frame_ideal, frame_reference, trivial, algebraic⟩

end Cert.Proof

end
